-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩

abbrev nBuf : Space → Nat
  | .hbm => 114
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000, .i1⟩
  | .hbm, ⟨14, _⟩ => ⟨S1600000, .f32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S100000, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x64, .f32⟩
  | .hbm, ⟨54, _⟩ => ⟨S1700000x1, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S1700000x1, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S1700000x1, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x64, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S_, .f32⟩
  | .hbm, ⟨111, _⟩ => ⟨S512x64, .f32⟩
  | .hbm, ⟨112, _⟩ => ⟨S100000x1, .i32⟩
  | .hbm, ⟨113, _⟩ => ⟨S512x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S512x64 : S_.BroadcastsInDim S512x64 (![] : Fin 0 → Fin S512x64.rank)
  bcast_S100000_S100000x1_0 : S100000.BroadcastsInDim S100000x1 (![0] : Fin 1 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩

abbrev nBuf : Space → Nat
  | .hbm => 187
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S1600000, .i1⟩
  | 14 => ⟨S1600000, .f32⟩
  | 15 => ⟨S100000, .i32⟩
  | 16 => ⟨S1700000, .i32⟩
  | 17 => ⟨S1700000, .i32⟩
  | 18 => ⟨S_, .f32⟩
  | 19 => ⟨S100000, .f32⟩
  | 20 => ⟨S1700000, .f32⟩
  | 21 => ⟨S100000x64, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S1700000x1, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S1700000x1, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S100000x64, .f32⟩
  | 2 => ⟨S100000x64, .f32⟩
  | 3 => ⟨S100000x64, .f32⟩
  | 4 => ⟨S_, .f32⟩
  | 5 => ⟨S100000, .f32⟩
  | 6 => ⟨S1700000x1, .i32⟩
  | 7 => ⟨S100000, .f32⟩
  | 8 => ⟨S_, .f32⟩
  | 9 => ⟨S100000, .f32⟩
  | 10 => ⟨S100000, .i1⟩
  | 11 => ⟨S100000, .f32⟩
  | 12 => ⟨S_, .f32⟩
  | 13 => ⟨S_, .f32⟩
  | 14 => ⟨S100000, .f32⟩
  | 15 => ⟨S100000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000, .f32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S1700000, .f32⟩
  | 36 => ⟨S1700000x1, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000x64, .f32⟩
  | 46 => ⟨S1700000x64, .f32⟩
  | 47 => ⟨S1700000x64, .f32⟩
  | 48 => ⟨S_, .f32⟩
  | 49 => ⟨S100000x64, .f32⟩
  | 50 => ⟨S1700000x1, .i32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S512x64, .f32⟩
  | 57 => ⟨S100000x1, .i32⟩
  | 58 => ⟨S512x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_14 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_16 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_18 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call3_cst : Ref sig .tc := ⟨.hbm, 128, rfl⟩
abbrev main_call3_v0 : Ref sig .tc := ⟨.hbm, 129, rfl⟩
abbrev main_v92 : Ref sig .tc := ⟨.hbm, 130, rfl⟩
abbrev main_v93 : Ref sig .tc := ⟨.hbm, 131, rfl⟩
abbrev main_cst_19 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_20 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_21 : Ref sig .tc := ⟨.hbm, 140, rfl⟩
abbrev main_call4_v0 : Ref sig .tc := ⟨.hbm, 141, rfl⟩
abbrev main_call4_v1 : Ref sig .tc := ⟨.hbm, 142, rfl⟩
abbrev main_v100 : Ref sig .tc := ⟨.hbm, 143, rfl⟩
abbrev main_c_22 : Ref sig .tc := ⟨.hbm, 144, rfl⟩
abbrev main_v101 : Ref sig .tc := ⟨.hbm, 145, rfl⟩
abbrev main_v102 : Ref sig .tc := ⟨.hbm, 146, rfl⟩
abbrev main_c_23 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_24 : Ref sig .tc := ⟨.hbm, 154, rfl⟩
abbrev main_v109 : Ref sig .tc := ⟨.hbm, 155, rfl⟩
abbrev main_v110 : Ref sig .tc := ⟨.hbm, 156, rfl⟩
abbrev main_c_25 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_26 : Ref sig .tc := ⟨.hbm, 165, rfl⟩
abbrev main_v118 : Ref sig .tc := ⟨.hbm, 166, rfl⟩
abbrev main_v119 : Ref sig .tc := ⟨.hbm, 167, rfl⟩
abbrev main_c_27 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_28 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_29 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf

class Facts : Prop extends Facts₀ where

variable [Facts]
-- ==== Proof.KernelRun.lean ====
/-
  The idealized kernel program's run with its RESULT named.

  The program is six kernel regions among stretches of host operations. Its run is followed as a fold of the buffer
  contents through the segments: a stretch of host operations replaces each buffer it writes by the operation's value,
  a region replaces its output array by what its grid points write back and leaves every other buffer as it was.
  Every weakly fair execution terminates in a state whose unscoped buffers hold the last contents of that fold; read
  at the result buffer this names the result, read at the argument buffers it says they end as launched.
-/
import proofs.«138898_j15547781611787_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    contents of the fold through the segments and the nine argument arrays as launched. -/
theorem run_named : θ_run defs (onTc (τ := τ) (main (F := F))) ⟨m, fun _ => 0, ρ⟩ (fun r => ∀ c : Dev nD,
      r.2.mem ((c.tc : Thread nD τ).loc main_v84) = W13 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v84 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.Named

end
-- ==== Proof.RefSpec.lean ====
/-
  The graph-convolution pipeline's host operations as named functions (the reference program's records).

  From the 2 × E edge list the pipeline builds, once, the source and target vectors with one self loop per node
  appended, the edge weights (0 on a listed self loop, 1 elsewhere), each node's weighted degree (the weights summed at
  the edge's source), its inverse square root (0 where the degree is not positive) and the symmetric normalisation of
  each edge. A layer then multiplies the node features by a weight matrix, lets every edge carry its target's row
  scaled by the edge's normalisation to its source, sums what arrives at each node, and adds a bias row. The last
  layer's rows are summed per graph. Each function below is one of these steps, spelt with the program's own
  operations and dimension records, for any float interpretation.
-/
import proofs.«138898_j15547781611787_1_alg».proof.ReferenceIdeal

noncomputable section

namespace Cert.ReferenceIdeal.Spec

open Idealize.ShloMosaic Idealize.ShloMosaic.TcCoe Cert.ReferenceIdeal Cert.ReferenceIdeal.Facts₀

variable {F : FTy → Type} [FloatOps F] [Cert.ReferenceIdeal.Facts₀]

/-- The source endpoints of the listed edges: row 0 of the 2 × E edge list, as a vector of length E. -/
def src (e : (⟨S2x1600000, .i32⟩ : BufTy).Contents (Elt F)) : (⟨S1600000, .i32⟩ : BufTy).Contents (Elt F) :=
  fun i => shapeCast S1600000 (extractStridedSlice S1x1600000 ![0, 0] e slices_S2x1600000_S1x1600000_0_0) shapeCasts_S1x1600000_S1600000 i

/-- The target endpoints: row 1 of the edge list. -/
def dst (e : (⟨S2x1600000, .i32⟩ : BufTy).Contents (Elt F)) : (⟨S1600000, .i32⟩ : BufTy).Contents (Elt F) :=
  fun i => shapeCast S1600000 (extractStridedSlice S1x1600000 ![1, 0] e slices_S2x1600000_S1x1600000_1_0) shapeCasts_S1x1600000_S1600000 i

/-- Sources with one self loop per node appended: a vector of length E + N. -/
def row (e : (⟨S2x1600000, .i32⟩ : BufTy).Contents (Elt F)) : (⟨S1700000, .i32⟩ : BufTy).Contents (Elt F) :=
  concatenate S1700000 0 [⟨S1600000, src e⟩, ⟨S100000, iotaInDim S100000 32 0⟩] concatenates_S1600000_S100000_S1700000_d0

/-- Targets with the self loops appended. -/
def col (e : (⟨S2x1600000, .i32⟩ : BufTy).Contents (Elt F)) : (⟨S1700000, .i32⟩ : BufTy).Contents (Elt F) :=
  concatenate S1700000 0 [⟨S1600000, dst e⟩, ⟨S100000, iotaInDim S100000 32 0⟩] concatenates_S1600000_S100000_S1700000_d0

/-- Edge weights: 1 where source and target differ, 0 on a listed self loop, and 1 on each appended self loop. -/
def ew (e : (⟨S2x1600000, .i32⟩ : BufTy).Contents (Elt F)) : (⟨S1700000, .f32⟩ : BufTy).Contents (Elt F) :=
  concatenate S1700000 0 [⟨S1600000, uitofp .f32 (cmpi .ne (src e) (dst e))⟩,
    ⟨S100000, broadcastInDim S100000 ![] bcast_S_S100000 (constant S_ .f32 0x3F800000#32)⟩] concatenates_S1600000_S100000_S1700000_d0

/-- A node's weighted degree: the sum of the weights of the edges whose source it is. -/
def deg (r : (⟨S1700000, .i32⟩ : BufTy).Contents (Elt F)) (w : (⟨S1700000, .f32⟩ : BufTy).Contents (Elt F)) :
    (⟨S100000, .f32⟩ : BufTy).Contents (Elt F) :=
  Host.scatterAdd scatter_S100000_S1700000x1_S1700000_n_0_0_1 (broadcastInDim S100000 ![] bcast_S_S100000 (constant S_ .f32 0x00000000#32))
    (broadcastInDim S1700000x1 ![0] bcast_S1700000_S1700000x1_0 r) w

/-- The inverse square root of the degree where it is positive, 0 elsewhere. -/
def dinv (d : (⟨S100000, .f32⟩ : BufTy).Contents (Elt F)) : (⟨S100000, .f32⟩ : BufTy).Contents (Elt F) :=
  select (cmpf .ogt d (broadcastInDim S100000 ![] bcast_S_S100000 (constant S_ .f32 0x00000000#32))) (Host.rsqrt d)
    (broadcastInDim S100000 ![] bcast_S_S100000 (id (constant S_ .f32 0x00000000#32)))

/-- An index counted from the end (negative) moved into range by adding N. -/
def wrap (ix : (⟨S1700000, .i32⟩ : BufTy).Contents (Elt F)) : (⟨S1700000, .i32⟩ : BufTy).Contents (Elt F) :=
  select (cmpi .slt ix (broadcastInDim S1700000 ![] bcast_S_S1700000 (constantI S_ 32 0#32)))
    (addi ix (broadcastInDim S1700000 ![] bcast_S_S1700000 (constantI S_ 32 100000#32))) ix

/-- The symmetric normalisation of an edge: dinv(source) · weight · dinv(target). -/
def norm (r c : (⟨S1700000, .i32⟩ : BufTy).Contents (Elt F)) (w : (⟨S1700000, .f32⟩ : BufTy).Contents (Elt F)) :
    (⟨S1700000, .f32⟩ : BufTy).Contents (Elt F) :=
  mulf (mulf (Host.gather gather_S100000_S1700000x1_S1700000_n_0_n_n_0_1_1 (dinv (deg r w)) (broadcastInDim S1700000x1 ![0] bcast_S1700000_S1700000x1_0 (wrap r))) w)
    (Host.gather gather_S100000_S1700000x1_S1700000_n_0_n_n_0_1_1 (dinv (deg r w)) (broadcastInDim S1700000x1 ![0] bcast_S1700000_S1700000x1_0 (wrap c)))

/-- Message passing: every edge carries its target's feature row scaled by the edge's normalisation, and the
    carried rows are summed at the edge's source. -/
def agg (xw : (⟨S100000x64, .f32⟩ : BufTy).Contents (Elt F)) (r c : (⟨S1700000, .i32⟩ : BufTy).Contents (Elt F))
    (nm : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 r)
    (mulf (broadcastInDim S1700000x64 ![0, 1] bcast_S1700000x1_S1700000x64_0_1 (broadcastInDim S1700000x1 ![0] bcast_S1700000_S1700000x1_0 nm))
      (Host.gather gather_S100000x64_S1700000x1_S1700000x64_1_0_n_n_0_1_164 xw (broadcastInDim S1700000x1 ![0] bcast_S1700000_S1700000x1_0 (wrap c))))

/-- The node rows summed per graph. -/
def pool (h : (⟨S100000x64, .f32⟩ : BufTy).Contents (Elt F)) (bt : (⟨S100000, .i32⟩ : BufTy).Contents (Elt F)) :
    (⟨S512x64, .f32⟩ : BufTy).Contents (Elt F) :=
  Host.scatterAdd scatter_S512x64_S100000x1_S100000x64_1_0_0_1 (broadcastInDim S512x64 ![] bcast_S_S512x64 (constant S_ .f32 0x00000000#32))
    (broadcastInDim S100000x1 ![0] bcast_S100000_S100000x1_0 bt) h

/-- The feature rows times a weight matrix. -/
def dot (x : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none x w

/-- A bias row, given as a 1 × 64 array, added to every node's row. -/
def addRow (h : (⟨S100000x64, .f32⟩ : BufTy).Contents (Elt F)) (b : (⟨S1x64, .f32⟩ : BufTy).Contents (Elt F)) :
    (⟨S100000x64, .f32⟩ : BufTy).Contents (Elt F) :=
  addf h (broadcastInDim S100000x64 ![0, 1] bcast_S1x64_S100000x64_0_1 b)

/-- A bias vector as a 1 × 64 array. -/
def asRow (b : (⟨S64, .f32⟩ : BufTy).Contents (Elt F)) : (⟨S1x64, .f32⟩ : BufTy).Contents (Elt F) :=
  broadcastInDim S1x64 ![1] bcast_S64_S1x64_1 b

/-- The positive part. -/
def relu (h : (⟨S100000x64, .f32⟩ : BufTy).Contents (Elt F)) : (⟨S100000x64, .f32⟩ : BufTy).Contents (Elt F) :=
  maximumf h (broadcastInDim S100000x64 ![] bcast_S_S100000x64 (constant S_ .f32 0x00000000#32))

/-- One layer, from the source and target vectors and the edge weights: project, pass messages along the normalised
    edges, add the bias. -/
def layer (h : (⟨S100000x64, .f32⟩ : BufTy).Contents (Elt F)) (w : (⟨S64x64, .f32⟩ : BufTy).Contents (Elt F)) (b : (⟨S64, .f32⟩ : BufTy).Contents (Elt F))
    (r c : (⟨S1700000, .i32⟩ : BufTy).Contents (Elt F)) (wt : (⟨S1700000, .f32⟩ : BufTy).Contents (Elt F)) : (⟨S100000x64, .f32⟩ : BufTy).Contents (Elt F) :=
  addRow (agg (dot h w) r c (norm r c wt)) (asRow b)

/-- Three layers, the positive part after the first two, then the sum per graph, from the source and target vectors
    and the edge weights. -/
def netOf (x : (⟨S100000x64, .f32⟩ : BufTy).Contents (Elt F)) (r c : (⟨S1700000, .i32⟩ : BufTy).Contents (Elt F)) (wt : (⟨S1700000, .f32⟩ : BufTy).Contents (Elt F))
    (bt : (⟨S100000, .i32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (w3 : (⟨S64x64, .f32⟩ : BufTy).Contents (Elt F)) (b3 : (⟨S64, .f32⟩ : BufTy).Contents (Elt F)) : (⟨S512x64, .f32⟩ : BufTy).Contents (Elt F) :=
  pool (layer (relu (layer (relu (layer x w1 b1 r c wt)) w2 b2 r c wt)) w3 b3 r c wt) bt

/-- The whole pipeline as a function of the nine arguments. -/
def net (x : (⟨S100000x64, .f32⟩ : BufTy).Contents (Elt F)) (e : (⟨S2x1600000, .i32⟩ : BufTy).Contents (Elt F)) (bt : (⟨S100000, .i32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (w3 : (⟨S64x64, .f32⟩ : BufTy).Contents (Elt F)) (b3 : (⟨S64, .f32⟩ : BufTy).Contents (Elt F)) : (⟨S512x64, .f32⟩ : BufTy).Contents (Elt F) :=
  netOf x (row e) (col e) (ew e) bt w1 b1 w2 b2 w3 b3

end Cert.ReferenceIdeal.Spec

end
-- ==== Proof.LibAfterAppend.lean ====
/-
  A straight line of host operations, evaluated in pieces.

  The buffer contents after a line of host operations are a fold of the operations' results over the incoming contents.
  The fold over a concatenation is the fold over the second list of the fold over the first, so a long line can be cut
  into consecutive pieces and each piece evaluated from ARBITRARY incoming contents `W` — a short evaluation with small
  terms — and the pieces composed by rewriting. Library-only; any element values, any reference signature.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lines run one after the other are the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Five consecutive pieces. -/
theorem after_append5 (a b c d e : List (HloOp τ sig Val)) (V : Valuation τ sig Val) :
    after (a ++ (b ++ (c ++ (d ++ e)))) V = after e (after d (after c (after b (after a V)))) := by
  rw [after_append, after_append, after_append, after_append]

end Cert.LibAfterAppend

end
-- ==== Proof.KernelHost.lean ====
/-
  The kernel program's stretches of host operations, each read from arbitrary incoming buffer contents.

  Between its six kernel regions the program runs the same host operations as the reference: it builds the source and
  target vectors and the edge weights from the edge list, then — once — the degrees and the normalisation of each edge;
  after each projection it lets every edge carry its target's row, scaled, to its source and sums what arrives; it
  reshapes each bias vector to a 1 × 64 row; and at the end it sums the node rows per graph. Each stretch is a fold of
  its operations' results over the contents it finds. Read at the buffer a later step uses, the fold is the
  corresponding named step of the pipeline applied to the incoming contents of the buffers it reads; read at a buffer
  the stretch does not write, it is the incoming contents. The named steps are spelt with the reference program's
  records; the kernel program's own records are the same dimension numbers over the same shapes.
-/
import proofs.«138898_j15547781611787_1_alg».proof.Proof.Gen.KernelIdeal.Launch
import proofs.«138898_j15547781611787_1_alg».proof.Proof.Gen.ReferenceIdeal
import proofs.«138898_j15547781611787_1_alg».proof.Proof.RefSpec
import proofs.«138898_j15547781611787_1_alg».proof.Proof.LibAfterAppend

set_option maxRecDepth 16384

noncomputable section

namespace Cert.KernelIdeal.HostSteps

open Idealize.ShloMosaic Idealize.ShloMosaic.TcCoe Idealize.ShloMosaic.StableHlo Idealize.SL.Sem
open Cert.KernelIdeal Cert.KernelIdeal.Gen

variable {F : FTy → Type} [FloatOps F]

/-- A bias vector reshaped to a 1 × 64 row. -/
def biasRow (b : (⟨S64, .f32⟩ : BufTy).Contents (Elt F)) : (⟨S1x64, .f32⟩ : BufTy).Contents (Elt F) :=
  fun i => shapeCast S1x64 b shapeCasts_S64_S1x64 i

/-! ## Before the first region -/

/-- The first twelve operations: the edge list's two rows, the self loops appended, the edge weights. -/
abbrev first : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_v1 main_v3 main_v4 (cmpi .ne : (⟨S1600000, .i32⟩ : BufTy).Contents (Elt F) → (⟨S1600000, .i32⟩ : BufTy).Contents (Elt F) → (⟨S1600000, .i1⟩ : BufTy).Contents (Elt F)),
    StableHlo.unary main_v4 main_v5 (uitofp .f32 : (⟨S1600000, .i1⟩ : BufTy).Contents (Elt F) → (⟨S1600000, .f32⟩ : BufTy).Contents (Elt F)),
    StableHlo.nullary main_v6 (iotaInDim S100000 32 0),
    StableHlo.binary main_v1 main_v6 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v6 main_v8 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v9 (broadcastInDim S100000 ![] bcast_S_S100000 : (⟨S_, .f32⟩ : BufTy).Contents (Elt F) → (⟨S100000, .f32⟩ : BufTy).Contents (Elt F)),
    StableHlo.binary main_v5 main_v9 main_v10 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) ]

/-- The next nine: the degrees, their comparison with zero and their inverse square roots. -/
abbrev second : List (HloOp τ sig (Elt F)) :=
  [ StableHlo.nullary main_cst_0 (constant S_ .f32 0x00000000#32),
    StableHlo.unary main_cst_0 main_v11 (broadcastInDim S100000 ![] bcast_S_S100000 : (⟨S_, .f32⟩ : BufTy).Contents (Elt F) → (⟨S100000, .f32⟩ : BufTy).Contents (Elt F)),
    StableHlo.unary main_v7 main_v12 (broadcastInDim S1700000x1 ![0] bcast_S1700000_S1700000x1_0 : (⟨S1700000, .i32⟩ : BufTy).Contents (Elt F) → (⟨S1700000x1, .i32⟩ : BufTy).Contents (Elt F)),
    StableHlo.ternary main_v11 main_v12 main_v10 main_v13 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v14 (broadcastInDim S100000 ![] bcast_S_S100000 : (⟨S_, .f32⟩ : BufTy).Contents (Elt F) → (⟨S100000, .f32⟩ : BufTy).Contents (Elt F)),
    StableHlo.binary main_v13 main_v14 main_v15 (cmpf .ogt : (⟨S100000, .f32⟩ : BufTy).Contents (Elt F) → (⟨S100000, .f32⟩ : BufTy).Contents (Elt F) → (⟨S100000, .i1⟩ : BufTy).Contents (Elt F)),
    StableHlo.unary main_v13 main_v16 (Host.rsqrt : (⟨S100000, .f32⟩ : BufTy).Contents (Elt F) → (⟨S100000, .f32⟩ : BufTy).Contents (Elt F)),
    StableHlo.nullary main_cst_2 (constant S_ .f32 0x00000000#32) ]

/-- The operations between the edge vectors and the first region: the degrees, the choice of the inverse square root
    or zero, and the normalisation of each edge. -/
abbrev mid : List (HloOp τ sig (Elt F)) :=
  [ StableHlo.nullary main_cst_0 (constant S_ .f32 0x00000000#32),
    StableHlo.unary main_cst_0 main_v11 (broadcastInDim S100000 ![] bcast_S_S100000 : (⟨S_, .f32⟩ : BufTy).Contents (Elt F) → (⟨S100000, .f32⟩ : BufTy).Contents (Elt F)),
    StableHlo.unary main_v7 main_v12 (broadcastInDim S1700000x1 ![0] bcast_S1700000_S1700000x1_0 : (⟨S1700000, .i32⟩ : BufTy).Contents (Elt F) → (⟨S1700000x1, .i32⟩ : BufTy).Contents (Elt F)),
    StableHlo.ternary main_v11 main_v12 main_v10 main_v13 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v14 (broadcastInDim S100000 ![] bcast_S_S100000 : (⟨S_, .f32⟩ : BufTy).Contents (Elt F) → (⟨S100000, .f32⟩ : BufTy).Contents (Elt F)),
    StableHlo.binary main_v13 main_v14 main_v15 (cmpf .ogt : (⟨S100000, .f32⟩ : BufTy).Contents (Elt F) → (⟨S100000, .f32⟩ : BufTy).Contents (Elt F) → (⟨S100000, .i1⟩ : BufTy).Contents (Elt F)),
    StableHlo.unary main_v13 main_v16 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v15 : StableHlo.TRef sig ⟨S100000, .i1⟩) (.of main_v16 : StableHlo.TRef sig ⟨S100000, .f32⟩) (.of main_call0_v1 : StableHlo.TRef sig ⟨S100000, .f32⟩) (.of main_v17 : StableHlo.TRef sig ⟨S100000, .f32⟩) select,
    StableHlo.nullary main_c (constantI S_ 32 0#32),
    StableHlo.unary main_c main_v18 (broadcastInDim S1700000 ![] bcast_S_S1700000 : (⟨S_, .i32⟩ : BufTy).Contents (Elt F) → (⟨S1700000, .i32⟩ : BufTy).Contents (Elt F)),
    StableHlo.binary main_v7 main_v18 main_v19 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v20 (broadcastInDim S1700000 ![] bcast_S_S1700000 : (⟨S_, .i32⟩ : BufTy).Contents (Elt F) → (⟨S1700000, .i32⟩ : BufTy).Contents (Elt F)),
    StableHlo.binary main_v7 main_v20 main_v21 (addi : (⟨S1700000, .i32⟩ : BufTy).Contents (Elt F) → (⟨S1700000, .i32⟩ : BufTy).Contents (Elt F) → (⟨S1700000, .i32⟩ : BufTy).Contents (Elt F)),
    StableHlo.ternary main_v19 main_v21 main_v7 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v22 main_v23 (broadcastInDim S1700000x1 ![0] bcast_S1700000_S1700000x1_0 : (⟨S1700000, .i32⟩ : BufTy).Contents (Elt F) → (⟨S1700000x1, .i32⟩ : BufTy).Contents (Elt F)),
    StableHlo.binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v10 main_v25 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v26 (broadcastInDim S1700000 ![] bcast_S_S1700000 : (⟨S_, .i32⟩ : BufTy).Contents (Elt F) → (⟨S1700000, .i32⟩ : BufTy).Contents (Elt F)),
    StableHlo.binary main_v8 main_v26 main_v27 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v28 (broadcastInDim S1700000 ![] bcast_S_S1700000 : (⟨S_, .i32⟩ : BufTy).Contents (Elt F) → (⟨S1700000, .i32⟩ : BufTy).Contents (Elt F)),
    StableHlo.binary main_v8 main_v28 main_v29 (addi : (⟨S1700000, .i32⟩ : BufTy).Contents (Elt F) → (⟨S1700000, .i32⟩ : BufTy).Contents (Elt F) → (⟨S1700000, .i32⟩ : BufTy).Contents (Elt F)),
    StableHlo.ternary main_v27 main_v29 main_v8 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v30 main_v31 (broadcastInDim S1700000x1 ![0] bcast_S1700000_S1700000x1_0 : (⟨S1700000, .i32⟩ : BufTy).Contents (Elt F) → (⟨S1700000x1, .i32⟩ : BufTy).Contents (Elt F)),
    StableHlo.binary main_v17 main_v31 main_v32 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v32 main_v33 (mulf : (⟨S1700000, .f32⟩ : BufTy).Contents (Elt F) → (⟨S1700000, .f32⟩ : BufTy).Contents (Elt F) → (⟨S1700000, .f32⟩ : BufTy).Contents (Elt F)) ]

theorem hostOps0_split : (hostOps0 : List (HloOp τ sig (Elt F))) = first ++ second := rfl
theorem mid_split : (mid : List (HloOp τ sig (Elt F))) = second ++ (hostOps0_1 ++ hostOps0_2) := rfl

/-- The three stretches before the first region, one after the other, are the two pieces `first` and `mid`. -/
theorem before_region0 (V : Valuation τ sig (Elt F)) :
    after hostOps0_2 (after hostOps0_1 (after hostOps0 V)) = after mid (after first V) := by
  rw [mid_split, hostOps0_split]
  simp only [Cert.LibAfterAppend.after_append]

theorem first_row (V : Valuation τ sig (Elt F)) :
    after first V (Proc.devRef .tc main_v7) = Cert.ReferenceIdeal.Spec.row (V (Proc.devRef .tc main_arg1)) := by
  after_results
  rfl

theorem first_col (V : Valuation τ sig (Elt F)) :
    after first V (Proc.devRef .tc main_v8) = Cert.ReferenceIdeal.Spec.col (V (Proc.devRef .tc main_arg1)) := by
  after_results
  rfl

theorem first_ew (V : Valuation τ sig (Elt F)) :
    after first V (Proc.devRef .tc main_v10) = Cert.ReferenceIdeal.Spec.ew (V (Proc.devRef .tc main_arg1)) := by
  after_results
  rfl

theorem first_arg0 (V : Valuation τ sig (Elt F)) :
    after first V (Proc.devRef .tc main_arg0) = V (Proc.devRef .tc main_arg0) := by
  after_results

theorem first_arg2 (V : Valuation τ sig (Elt F)) :
    after first V (Proc.devRef .tc main_arg2) = V (Proc.devRef .tc main_arg2) := by
  after_results

theorem first_arg3 (V : Valuation τ sig (Elt F)) :
    after first V (Proc.devRef .tc main_arg3) = V (Proc.devRef .tc main_arg3) := by
  after_results

theorem first_arg4 (V : Valuation τ sig (Elt F)) :
    after first V (Proc.devRef .tc main_arg4) = V (Proc.devRef .tc main_arg4) := by
  after_results

theorem first_arg5 (V : Valuation τ sig (Elt F)) :
    after first V (Proc.devRef .tc main_arg5) = V (Proc.devRef .tc main_arg5) := by
  after_results

theorem first_arg6 (V : Valuation τ sig (Elt F)) :
    after first V (Proc.devRef .tc main_arg6) = V (Proc.devRef .tc main_arg6) := by
  after_results

theorem first_arg7 (V : Valuation τ sig (Elt F)) :
    after first V (Proc.devRef .tc main_arg7) = V (Proc.devRef .tc main_arg7) := by
  after_results

theorem first_arg8 (V : Valuation τ sig (Elt F)) :
    after first V (Proc.devRef .tc main_arg8) = V (Proc.devRef .tc main_arg8) := by
  after_results

theorem mid_norm (V : Valuation τ sig (Elt F)) :
    after mid V (Proc.devRef .tc main_v33) = Cert.ReferenceIdeal.Spec.norm (V (Proc.devRef .tc main_v7)) (V (Proc.devRef .tc main_v8)) (V (Proc.devRef .tc main_v10)) := by
  after_results_simp
  rfl

theorem mid_v7 (V : Valuation τ sig (Elt F)) :
    after mid V (Proc.devRef .tc main_v7) = V (Proc.devRef .tc main_v7) := by
  after_results_simp

theorem mid_v8 (V : Valuation τ sig (Elt F)) :
    after mid V (Proc.devRef .tc main_v8) = V (Proc.devRef .tc main_v8) := by
  after_results_simp

theorem mid_arg0 (V : Valuation τ sig (Elt F)) :
    after mid V (Proc.devRef .tc main_arg0) = V (Proc.devRef .tc main_arg0) := by
  after_results_simp

theorem mid_arg2 (V : Valuation τ sig (Elt F)) :
    after mid V (Proc.devRef .tc main_arg2) = V (Proc.devRef .tc main_arg2) := by
  after_results_simp

theorem mid_arg3 (V : Valuation τ sig (Elt F)) :
    after mid V (Proc.devRef .tc main_arg3) = V (Proc.devRef .tc main_arg3) := by
  after_results_simp

theorem mid_arg4 (V : Valuation τ sig (Elt F)) :
    after mid V (Proc.devRef .tc main_arg4) = V (Proc.devRef .tc main_arg4) := by
  after_results_simp

theorem mid_arg5 (V : Valuation τ sig (Elt F)) :
    after mid V (Proc.devRef .tc main_arg5) = V (Proc.devRef .tc main_arg5) := by
  after_results_simp

theorem mid_arg6 (V : Valuation τ sig (Elt F)) :
    after mid V (Proc.devRef .tc main_arg6) = V (Proc.devRef .tc main_arg6) := by
  after_results_simp

theorem mid_arg7 (V : Valuation τ sig (Elt F)) :
    after mid V (Proc.devRef .tc main_arg7) = V (Proc.devRef .tc main_arg7) := by
  after_results_simp

theorem mid_arg8 (V : Valuation τ sig (Elt F)) :
    after mid V (Proc.devRef .tc main_arg8) = V (Proc.devRef .tc main_arg8) := by
  after_results_simp

/-! ## Between the regions -/

theorem ops1_agg (V : Valuation τ sig (Elt F)) :
    after hostOps1 V (Proc.devRef .tc main_v47)
      = Cert.ReferenceIdeal.Spec.agg (V (Proc.devRef .tc main_v34)) (V (Proc.devRef .tc main_v7)) (V (Proc.devRef .tc main_v8)) (V (Proc.devRef .tc main_v33)) := by
  after_results_simp
  rfl

theorem ops1_bias (V : Valuation τ sig (Elt F)) :
    after hostOps1 V (Proc.devRef .tc main_v48) = biasRow (V (Proc.devRef .tc main_arg4)) := by
  after_results_simp
  rfl

theorem ops1_v7 (V : Valuation τ sig (Elt F)) :
    after hostOps1 V (Proc.devRef .tc main_v7) = V (Proc.devRef .tc main_v7) := by
  after_results_simp

theorem ops1_v8 (V : Valuation τ sig (Elt F)) :
    after hostOps1 V (Proc.devRef .tc main_v8) = V (Proc.devRef .tc main_v8) := by
  after_results_simp

theorem ops1_v33 (V : Valuation τ sig (Elt F)) :
    after hostOps1 V (Proc.devRef .tc main_v33) = V (Proc.devRef .tc main_v33) := by
  after_results_simp

theorem ops1_arg2 (V : Valuation τ sig (Elt F)) :
    after hostOps1 V (Proc.devRef .tc main_arg2) = V (Proc.devRef .tc main_arg2) := by
  after_results_simp

theorem ops1_arg5 (V : Valuation τ sig (Elt F)) :
    after hostOps1 V (Proc.devRef .tc main_arg5) = V (Proc.devRef .tc main_arg5) := by
  after_results_simp

theorem ops1_arg6 (V : Valuation τ sig (Elt F)) :
    after hostOps1 V (Proc.devRef .tc main_arg6) = V (Proc.devRef .tc main_arg6) := by
  after_results_simp

theorem ops1_arg7 (V : Valuation τ sig (Elt F)) :
    after hostOps1 V (Proc.devRef .tc main_arg7) = V (Proc.devRef .tc main_arg7) := by
  after_results_simp

theorem ops1_arg8 (V : Valuation τ sig (Elt F)) :
    after hostOps1 V (Proc.devRef .tc main_arg8) = V (Proc.devRef .tc main_arg8) := by
  after_results_simp

theorem ops3_agg (V : Valuation τ sig (Elt F)) :
    after hostOps3 V (Proc.devRef .tc main_v63)
      = Cert.ReferenceIdeal.Spec.agg (V (Proc.devRef .tc main_v50)) (V (Proc.devRef .tc main_v7)) (V (Proc.devRef .tc main_v8)) (V (Proc.devRef .tc main_v33)) := by
  after_results_simp
  rfl

theorem ops3_bias (V : Valuation τ sig (Elt F)) :
    after hostOps3 V (Proc.devRef .tc main_v64) = biasRow (V (Proc.devRef .tc main_arg6)) := by
  after_results_simp
  rfl

theorem ops3_v7 (V : Valuation τ sig (Elt F)) :
    after hostOps3 V (Proc.devRef .tc main_v7) = V (Proc.devRef .tc main_v7) := by
  after_results_simp

theorem ops3_v8 (V : Valuation τ sig (Elt F)) :
    after hostOps3 V (Proc.devRef .tc main_v8) = V (Proc.devRef .tc main_v8) := by
  after_results_simp

theorem ops3_v33 (V : Valuation τ sig (Elt F)) :
    after hostOps3 V (Proc.devRef .tc main_v33) = V (Proc.devRef .tc main_v33) := by
  after_results_simp

theorem ops3_arg2 (V : Valuation τ sig (Elt F)) :
    after hostOps3 V (Proc.devRef .tc main_arg2) = V (Proc.devRef .tc main_arg2) := by
  after_results_simp

theorem ops3_arg7 (V : Valuation τ sig (Elt F)) :
    after hostOps3 V (Proc.devRef .tc main_arg7) = V (Proc.devRef .tc main_arg7) := by
  after_results_simp

theorem ops3_arg8 (V : Valuation τ sig (Elt F)) :
    after hostOps3 V (Proc.devRef .tc main_arg8) = V (Proc.devRef .tc main_arg8) := by
  after_results_simp

theorem ops5_agg (V : Valuation τ sig (Elt F)) :
    after hostOps5 V (Proc.devRef .tc main_v79)
      = Cert.ReferenceIdeal.Spec.agg (V (Proc.devRef .tc main_v66)) (V (Proc.devRef .tc main_v7)) (V (Proc.devRef .tc main_v8)) (V (Proc.devRef .tc main_v33)) := by
  after_results_simp
  rfl

theorem ops5_bias (V : Valuation τ sig (Elt F)) :
    after hostOps5 V (Proc.devRef .tc main_v80) = biasRow (V (Proc.devRef .tc main_arg8)) := by
  after_results_simp
  rfl

theorem ops5_arg2 (V : Valuation τ sig (Elt F)) :
    after hostOps5 V (Proc.devRef .tc main_arg2) = V (Proc.devRef .tc main_arg2) := by
  after_results_simp

/-! ## After the last region -/

theorem ops6_pool (V : Valuation τ sig (Elt F)) :
    after hostOps6 V (Proc.devRef .tc main_v84) = Cert.ReferenceIdeal.Spec.pool (V (Proc.devRef .tc main_v81)) (V (Proc.devRef .tc main_arg2)) := by
  after_results_simp
  rfl

end Cert.KernelIdeal.HostSteps

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.MatmulRegion.lean ====
/-
  The three matrix-product regions of the kernel program, each read as ONE whole-array product.

  Regions 0, 2 and 4 run the same body on a grid of ten points: point `t` loads rows `10000 t … 10000 t + 9999` of
  the left operand (a 100000 × 64 array) and the whole right operand (64 × 64), multiplies the two blocks into a zero
  accumulator, and writes the 10000 × 64 result back to the same rows of the result array. Over the extended reals the
  change of float format on the way into the product is the identity, and entry `(p, q)` of a block product is
  `∑ k, x (p, k) * w (k, q)`: a sum that reads row `p` of the left block and column `q` of the right one only. Row `p`
  of block `t` is row `10000 t + p` of the left array, so what point `t` writes back is rows `10000 t …` of the host's
  product of the two whole arrays; the ten row blocks cover the result array (row `r` lies in block `r / 10000`), so
  after the region the result array IS that product of the region-entry contents of the two operand arrays.
-/
import proofs.«138898_j15547781611787_1_alg».proof.Proof.Gen.KernelIdeal.Frame
import proofs.«138898_j15547781611787_1_alg».proof.ReferenceIdeal
import proofs.«138898_j15547781611787_1_alg».proof.Proof.LibMatmulIx
import proofs.«138898_j15547781611787_1_alg».proof.Proof.LibHostDotIx
import Idealize.ShloMosaic.Lib.Pipeline.Value
import Idealize.ShloMosaic.Lib.ValueIdx
import Idealize.ShloMosaic.PureOps.Ideal.Laws

noncomputable section

open scoped BigOperators

namespace Cert.KernelIdeal.MatmulRegion

open Cert.KernelIdeal Idealize.ShloMosaic Idealize.ShloMosaic.TcCoe Idealize.SL.Sem
open Idealize.ShloMosaic.ValueIdx
open Idealize.ShloMosaic.Pipeline (Dat)

variable [Cert.ReferenceIdeal.Facts₀]

/-- The whole product: the host's matrix product of a 100000 × 64 array by a 64 × 64 array. -/
abbrev prod (A : FVec Ideal S100000x64 .f32) (W : FVec Ideal S64x64 .f32) : FVec Ideal S100000x64 .f32 :=
  Host.dotGeneral (F := Ideal) (φ₁ := .f32) (φ₂ := .f32)
    Cert.ReferenceIdeal.dot_S100000x64_S64x64_S100000x64_1_0_0_1_n_n none A W

/-- Its entry `(r, q)`: the sum over the contracted coordinate of row `r` of the left array against column `q` of
    the right one. -/
theorem prod_apply (A : FVec Ideal S100000x64 .f32) (W : FVec Ideal S64x64 .f32) (r : Fin 100000) (q : Fin 64) :
    prod A W (ix2 r q) = ∑ k : Fin 64, A (ix2 r k) * W (ix2 k q) :=
  Cert.LibHostDotIx.dotGeneral_apply
    Cert.ReferenceIdeal.Facts₀.dot_S100000x64_S64x64_S100000x64_1_0_0_1_n_n_wf none A W r q

/-- One entry of a block product against one entry of the whole product. Let `B` be a 10000 × 64 block whose entry
    `(p, q)` is `∑ k, x0 (p, k) * x1 (k, q)`. Its entry at `y` is the whole product's entry at `i` as soon as the two
    have the same column, row `y 0` of `x0` is row `i 0` of the left array, and `x1` agrees with the right array on
    that column. -/
theorem entry_of_block (B : FVec Ideal S10000x64 .f32) (x0 : Vec Ideal S10000x64 .f32) (x1 : Vec Ideal S64x64 .f32)
    (hB : ∀ (p : Fin 10000) (q : Fin 64), B (ix2 p q) = ∑ k : Fin 64, x0 (ix2 p k) * x1 (ix2 k q))
    (A : FVec Ideal S100000x64 .f32) (W : FVec Ideal S64x64 .f32)
    (y : S10000x64.Idx) (i : S100000x64.Idx) (hq : (i 1).val = (y 1).val)
    (h0 : ∀ k : Fin 64, x0 (ix2 (y 0) k) = A (ix2 (i 0) k))
    (h1 : ∀ k : Fin 64, x1 (ix2 k (y 1)) = W (ix2 k (y 1))) :
    B y = prod A W i := by
  obtain ⟨p, q, rfl⟩ : ∃ (p : Fin 10000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext hq
  rw [hB, prod_apply]
  exact Finset.sum_congr rfl fun k _ => congrArg₂ (· * ·) (h0 k) (h1 k)

/-- The zero offsets of a whole-block load or store, as the constant function. -/
theorem hz : (![0, 0] : Fin 2 → Nat) = fun _ => 0 := funext fun a => by fin_cases a <;> rfl

/-! ## The body's stored value at an entry

At the extended reals rounding the operands to bf16 is the identity, so what the body stores is the product of its two
loaded blocks into the zero accumulator (in regions 2 and 4 the left block first passes a reshape to its own shape). -/

theorem pay0_apply (x0 : Vec Ideal S10000x64 .f32) (x1 : Vec Ideal S64x64 .f32) (p : Fin 10000) (q : Fin 64) :
    Gen.k0_pay1 x0 x1 (ix2 p q) = ∑ k : Fin 64, x0 (ix2 p k) * x1 (ix2 k q) := by
  unfold Gen.k0_pay1
  exact Cert.LibMatmulIx.matmul_zero_apply Facts₀.dot_S10000x64_S64x64_S10000x64_1_0_0_1_n_n_wf none x0 x1 p q

theorem pay2_apply (x0 : Vec Ideal S10000x64 .f32) (x1 : Vec Ideal S64x64 .f32) (p : Fin 10000) (q : Fin 64) :
    Gen.k2_pay1 x0 x1 (ix2 p q) = ∑ k : Fin 64, x0 (ix2 p k) * x1 (ix2 k q) := by
  unfold Gen.k2_pay1
  rw [shapeCast_self]
  exact Cert.LibMatmulIx.matmul_zero_apply Facts₀.dot_S10000x64_S64x64_S10000x64_1_0_0_1_n_n_wf none x0 x1 p q

theorem pay4_apply (x0 : Vec Ideal S10000x64 .f32) (x1 : Vec Ideal S64x64 .f32) (p : Fin 10000) (q : Fin 64) :
    Gen.k4_pay1 x0 x1 (ix2 p q) = ∑ k : Fin 64, x0 (ix2 p k) * x1 (ix2 k q) := by
  unfold Gen.k4_pay1
  rw [shapeCast_self]
  exact Cert.LibMatmulIx.matmul_zero_apply Facts₀.dot_S10000x64_S64x64_S10000x64_1_0_0_1_n_n_wf none x0 x1 p q

variable (V : (c : Dev nD) → (b : Ref sig .tc) → Buf (Elt Ideal) ((c : Thread nD τ).loc b))

/-! ## Region 0 -/

/-- The printed index maps of region 0, decided over its ten grid points: the left operand's and the result's
    block index is `(t, 0)`, the right operand's is `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` of region 0 writes back is block `t` of the whole product of the two operand arrays as the
    region finds them: an element of a block sits in its array, on each axis, at block index × block size + its
    coordinate, so the left block's row `p` is the left array's row `10000 t + p`, the result block's likewise, and
    the right block is the right array. -/
theorem flushed0 (c : Dev nD) (t : Fin cfg0.N) :
    (Gen.dat0 (F := Ideal) V c).flushed 2 t
      = ((cfg0.win 2).blk t).view.read (Elt Ideal)
          (prod (V c (Pipeline.arrRef spec0 0)) (V c (Pipeline.arrRef spec0 1))) := by
  show (cfg0.win 2).cut (grid0.coords t) ((Gen.dat0 (F := Ideal) V c).after 2 t) = _
  rw [Gen.after0_2]
  unfold Gen.out0_2
  rw [View.canon_unit_zero hz]
  simp only [View.ld_unit_zero (S := S10000x64) hz, View.ld_unit_zero (S := S64x64) hz]
  obtain ⟨e0, e1, e2, e3, e4, e5⟩ := idx_facts0 t
  funext y
  show Gen.k0_pay1 (Gen.iblk0 V c 0 t) (Gen.iblk0 V c 1 t) y
      = prod (V c (Pipeline.arrRef spec0 0)) (V c (Pipeline.arrRef spec0 1)) (((cfg0.win 2).blk t).view.emb y)
  refine entry_of_block _ (Gen.iblk0 V c 0 t) (Gen.iblk0 V c 1 t) (pay0_apply _ _) _ _ y _ ?_
    (fun k => ?_) (fun k => ?_)
  · show win0_2.index t (1 : Fin 2) * 64 + 1 * (y 1).val = (y 1).val
    omega
  · show V c (Pipeline.arrRef spec0 0) (((cfg0.win 0).blk t).view.emb (ix2 (y 0) k)) = _
    refine congrArg (V c (Pipeline.arrRef spec0 0)) ?_
    funext a; apply Fin.ext
    match a with
    | ⟨0, _⟩ =>
      show win0_0.index t (0 : Fin 2) * 10000 + 1 * (y 0).val = win0_2.index t (0 : Fin 2) * 10000 + 1 * (y 0).val
      omega
    | ⟨1, _⟩ => show win0_0.index t (1 : Fin 2) * 64 + 1 * k.val = k.val; omega
  · show V c (Pipeline.arrRef spec0 1) (((cfg0.win 1).blk t).view.emb (ix2 k (y 1))) = _
    refine congrArg (V c (Pipeline.arrRef spec0 1)) ?_
    funext a; apply Fin.ext
    match a with
    | ⟨0, _⟩ => show win0_1.index t (0 : Fin 2) * 64 + 1 * k.val = k.val; omega
    | ⟨1, _⟩ => show win0_1.index t (1 : Fin 2) * 64 + 1 * (y 1).val = (y 1).val; omega

/-- An index of region 0's result array is in point `t`'s block iff each coordinate is in the block's range on
    its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v34).slice (win0_2.rect t)).set ↔ _
  rw [View.set_slice_whole, Rect.mem_set_unit]
  exact Iff.rfl

/-- The ten row blocks cover region 0's result array: row `r` lies in the block of point `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by rw [show cfg0.N = 10 from Gen.N_0]; omega⟩, rfl⟩
  obtain ⟨e0, e1, e2, e3, e4, e5⟩ := idx_facts0 t
  refine ⟨t, Gen.flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After region 0 its result array is the whole matrix product of the region-entry contents of its two operand
    arrays: each grid point writes back its row block of the product, and the row blocks cover the array. -/
theorem region0 (c : Dev nD) :
    (Gen.dat0 (F := Ideal) V c).arrAt 2 cfg0.N
      = Host.dotGeneral (F := Ideal) (φ₁ := .f32) (φ₂ := .f32)
          Cert.ReferenceIdeal.dot_S100000x64_S64x64_S100000x64_1_0_0_1_n_n none
          (V c (Pipeline.arrRef spec0 0)) (V c (Pipeline.arrRef spec0 1)) :=
  (Gen.dat0 (F := Ideal) V c).arrAt_eq_of_cover 2
    (prod (V c (Pipeline.arrRef spec0 0)) (V c (Pipeline.arrRef spec0 1)))
    (fun t _ => flushed0 V c t) cover0

/-! ## Region 2 -/

/-- The printed index maps of region 2, decided over its ten grid points: the left operand's and the result's
    block index is `(t, 0)`, the right operand's is `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` of region 2 writes back is block `t` of the whole product of the two operand arrays as the
    region finds them: an element of a block sits in its array, on each axis, at block index × block size + its
    coordinate, so the left block's row `p` is the left array's row `10000 t + p`, the result block's likewise, and
    the right block is the right array. -/
theorem flushed2 (c : Dev nD) (t : Fin cfg2.N) :
    (Gen.dat2 (F := Ideal) V c).flushed 2 t
      = ((cfg2.win 2).blk t).view.read (Elt Ideal)
          (prod (V c (Pipeline.arrRef spec2 0)) (V c (Pipeline.arrRef spec2 1))) := by
  show (cfg2.win 2).cut (grid2.coords t) ((Gen.dat2 (F := Ideal) V c).after 2 t) = _
  rw [Gen.after2_2]
  unfold Gen.out2_2
  rw [View.canon_unit_zero hz]
  simp only [View.ld_unit_zero (S := S10000x64) hz, View.ld_unit_zero (S := S64x64) hz]
  obtain ⟨e0, e1, e2, e3, e4, e5⟩ := idx_facts2 t
  funext y
  show Gen.k2_pay1 (Gen.iblk2 V c 0 t) (Gen.iblk2 V c 1 t) y
      = prod (V c (Pipeline.arrRef spec2 0)) (V c (Pipeline.arrRef spec2 1)) (((cfg2.win 2).blk t).view.emb y)
  refine entry_of_block _ (Gen.iblk2 V c 0 t) (Gen.iblk2 V c 1 t) (pay2_apply _ _) _ _ y _ ?_
    (fun k => ?_) (fun k => ?_)
  · show win2_2.index t (1 : Fin 2) * 64 + 1 * (y 1).val = (y 1).val
    omega
  · show V c (Pipeline.arrRef spec2 0) (((cfg2.win 0).blk t).view.emb (ix2 (y 0) k)) = _
    refine congrArg (V c (Pipeline.arrRef spec2 0)) ?_
    funext a; apply Fin.ext
    match a with
    | ⟨0, _⟩ =>
      show win2_0.index t (0 : Fin 2) * 10000 + 1 * (y 0).val = win2_2.index t (0 : Fin 2) * 10000 + 1 * (y 0).val
      omega
    | ⟨1, _⟩ => show win2_0.index t (1 : Fin 2) * 64 + 1 * k.val = k.val; omega
  · show V c (Pipeline.arrRef spec2 1) (((cfg2.win 1).blk t).view.emb (ix2 k (y 1))) = _
    refine congrArg (V c (Pipeline.arrRef spec2 1)) ?_
    funext a; apply Fin.ext
    match a with
    | ⟨0, _⟩ => show win2_1.index t (0 : Fin 2) * 64 + 1 * k.val = k.val; omega
    | ⟨1, _⟩ => show win2_1.index t (1 : Fin 2) * 64 + 1 * (y 1).val = (y 1).val; omega

/-- An index of region 2's result array is in point `t`'s block iff each coordinate is in the block's range on
    its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v50).slice (win2_2.rect t)).set ↔ _
  rw [View.set_slice_whole, Rect.mem_set_unit]
  exact Iff.rfl

/-- The ten row blocks cover region 2's result array: row `r` lies in the block of point `r / 10000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by rw [show cfg2.N = 10 from Gen.N_2]; omega⟩, rfl⟩
  obtain ⟨e0, e1, e2, e3, e4, e5⟩ := idx_facts2 t
  refine ⟨t, Gen.flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- After region 2 its result array is the whole matrix product of the region-entry contents of its two operand
    arrays: each grid point writes back its row block of the product, and the row blocks cover the array. -/
theorem region2 (c : Dev nD) :
    (Gen.dat2 (F := Ideal) V c).arrAt 2 cfg2.N
      = Host.dotGeneral (F := Ideal) (φ₁ := .f32) (φ₂ := .f32)
          Cert.ReferenceIdeal.dot_S100000x64_S64x64_S100000x64_1_0_0_1_n_n none
          (V c (Pipeline.arrRef spec2 0)) (V c (Pipeline.arrRef spec2 1)) :=
  (Gen.dat2 (F := Ideal) V c).arrAt_eq_of_cover 2
    (prod (V c (Pipeline.arrRef spec2 0)) (V c (Pipeline.arrRef spec2 1)))
    (fun t _ => flushed2 V c t) cover2

/-! ## Region 4 -/

/-- The printed index maps of region 4, decided over its ten grid points: the left operand's and the result's
    block index is `(t, 0)`, the right operand's is `(0, 0)`. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` of region 4 writes back is block `t` of the whole product of the two operand arrays as the
    region finds them: an element of a block sits in its array, on each axis, at block index × block size + its
    coordinate, so the left block's row `p` is the left array's row `10000 t + p`, the result block's likewise, and
    the right block is the right array. -/
theorem flushed4 (c : Dev nD) (t : Fin cfg4.N) :
    (Gen.dat4 (F := Ideal) V c).flushed 2 t
      = ((cfg4.win 2).blk t).view.read (Elt Ideal)
          (prod (V c (Pipeline.arrRef spec4 0)) (V c (Pipeline.arrRef spec4 1))) := by
  show (cfg4.win 2).cut (grid4.coords t) ((Gen.dat4 (F := Ideal) V c).after 2 t) = _
  rw [Gen.after4_2]
  unfold Gen.out4_2
  rw [View.canon_unit_zero hz]
  simp only [View.ld_unit_zero (S := S10000x64) hz, View.ld_unit_zero (S := S64x64) hz]
  obtain ⟨e0, e1, e2, e3, e4, e5⟩ := idx_facts4 t
  funext y
  show Gen.k4_pay1 (Gen.iblk4 V c 0 t) (Gen.iblk4 V c 1 t) y
      = prod (V c (Pipeline.arrRef spec4 0)) (V c (Pipeline.arrRef spec4 1)) (((cfg4.win 2).blk t).view.emb y)
  refine entry_of_block _ (Gen.iblk4 V c 0 t) (Gen.iblk4 V c 1 t) (pay4_apply _ _) _ _ y _ ?_
    (fun k => ?_) (fun k => ?_)
  · show win4_2.index t (1 : Fin 2) * 64 + 1 * (y 1).val = (y 1).val
    omega
  · show V c (Pipeline.arrRef spec4 0) (((cfg4.win 0).blk t).view.emb (ix2 (y 0) k)) = _
    refine congrArg (V c (Pipeline.arrRef spec4 0)) ?_
    funext a; apply Fin.ext
    match a with
    | ⟨0, _⟩ =>
      show win4_0.index t (0 : Fin 2) * 10000 + 1 * (y 0).val = win4_2.index t (0 : Fin 2) * 10000 + 1 * (y 0).val
      omega
    | ⟨1, _⟩ => show win4_0.index t (1 : Fin 2) * 64 + 1 * k.val = k.val; omega
  · show V c (Pipeline.arrRef spec4 1) (((cfg4.win 1).blk t).view.emb (ix2 k (y 1))) = _
    refine congrArg (V c (Pipeline.arrRef spec4 1)) ?_
    funext a; apply Fin.ext
    match a with
    | ⟨0, _⟩ => show win4_1.index t (0 : Fin 2) * 64 + 1 * k.val = k.val; omega
    | ⟨1, _⟩ => show win4_1.index t (1 : Fin 2) * 64 + 1 * (y 1).val = (y 1).val; omega

/-- An index of region 4's result array is in point `t`'s block iff each coordinate is in the block's range on
    its axis. -/
theorem mem_blk4 (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v66).slice (win4_2.rect t)).set ↔ _
  rw [View.set_slice_whole, Rect.mem_set_unit]
  exact Iff.rfl

/-- The ten row blocks cover region 4's result array: row `r` lies in the block of point `r / 10000`. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ : ∃ t : Fin cfg4.N, t.val = (i 0).val / 10000 :=
    ⟨⟨(i 0).val / 10000, by rw [show cfg4.N = 10 from Gen.N_4]; omega⟩, rfl⟩
  obtain ⟨e0, e1, e2, e3, e4, e5⟩ := idx_facts4 t
  refine ⟨t, Gen.flush4_2 t, ?_⟩
  rw [mem_blk4]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 64 ≤ (i 1).val ∧ (i 1).val < win4_2.index t (1 : Fin 2) * 64 + 64
    omega

/-- After region 4 its result array is the whole matrix product of the region-entry contents of its two operand
    arrays: each grid point writes back its row block of the product, and the row blocks cover the array. -/
theorem region4 (c : Dev nD) :
    (Gen.dat4 (F := Ideal) V c).arrAt 2 cfg4.N
      = Host.dotGeneral (F := Ideal) (φ₁ := .f32) (φ₂ := .f32)
          Cert.ReferenceIdeal.dot_S100000x64_S64x64_S100000x64_1_0_0_1_n_n none
          (V c (Pipeline.arrRef spec4 0)) (V c (Pipeline.arrRef spec4 1)) :=
  (Gen.dat4 (F := Ideal) V c).arrAt_eq_of_cover 2
    (prod (V c (Pipeline.arrRef spec4 0)) (V c (Pipeline.arrRef spec4 1)))
    (fun t _ => flushed4 V c t) cover4

end Cert.KernelIdeal.MatmulRegion

end
-- ==== Proof.BiasRegion.lean ====
import proofs.«138898_j15547781611787_1_alg».proof.Proof.Gen.KernelIdeal.Frame
import proofs.«138898_j15547781611787_1_alg».proof.ReferenceIdeal
import Idealize.ShloMosaic.Lib.Pipeline.Value
import Idealize.ShloMosaic.Lib.ValueIdx
import Idealize.ShloMosaic.Lib.ValueLayout
import Idealize.ShloMosaic.PureOps.Ideal.Laws

noncomputable section

/-! # The three bias regions

Each of these regions runs over ten points. Point `t` stages rows `10000 t … 10000 t + 9999` of a `[100000, 64]`
array together with the whole `[1, 64]` bias row, adds the bias row to every staged row (and, in regions 1 and 3, takes
the larger of the sum and zero), and writes the result back to the same rows of the output array. Entry `(r, q)` of
what is written depends only on the input's entry `(r, q)` and on the bias's entry `(0, q)`, so every block written
is the restriction of ONE function of the whole arrays; the ten blocks cover every row; hence the output array after
the region is that function of the arrays as the region finds them: the array plus the bias row broadcast over the
rows, and, where there is a maximum, the larger of that and the zero array. The last lemma says that a vector of 64
entries recast as a `[1, 64]` row is the same row as the vector broadcast along a new leading axis. -/

namespace Cert.KernelIdeal.BiasRegion

open Cert.KernelIdeal Idealize.ShloMosaic Idealize.ShloMosaic.TcCoe Idealize.SL.Sem
open Idealize.ShloMosaic.ValueIdx
open Idealize.ShloMosaic.Pipeline (Dat)
open Cert.KernelIdeal.Facts₀

variable [Cert.ReferenceIdeal.Facts₀]

/-- The zero offsets of a whole-block access, as a constant function. -/
theorem off_zero : (![0, 0] : Fin 2 → Nat) = fun _ => 0 := funext fun a => by fin_cases a <;> rfl

/-! ## Region 1: a bias row added to every row of the block, then the maximum with zero -/

/-- The body's payload at row `p`, column `q` of the block: the block's entry plus the bias row's entry of
    that column, and the larger of that and zero. -/
theorem pay1_apply (x0 : Vec Ideal S10000x64 .f32) (x1 : Vec Ideal S1x64 .f32) (p : Fin 10000) (q : Fin 64) :
    Gen.k1_pay1 x0 x1 (ix2 p q) = max (x0 (ix2 p q) + x1 (ix2 (0 : Fin 1) q)) (Ideal.ofBits .f32 0x00000000#32) := by
  unfold Gen.k1_pay1
  rw [maximumf_apply, addf_apply, broadcast_apply, shapeCast_self, shapeCast_self, broadcastTo_1b_ab_apply]
  rfl

/-- The host expression at an index `i` of the whole array: the entry plus the bias row's entry `k` of the same
    column, and the larger of that and zero. -/
theorem ref1_apply (A : FVec Ideal Cert.ReferenceIdeal.S100000x64 .f32) (B : FVec Ideal Cert.ReferenceIdeal.S1x64 .f32)
    (i : Cert.ReferenceIdeal.S100000x64.Idx) (k : Cert.ReferenceIdeal.S1x64.Idx) (hk0 : (k 0).val = 0) (hk1 : (k 1).val = (i 1).val) :
    (maximumf (addf A
            (broadcastInDim Cert.ReferenceIdeal.S100000x64 ![0, 1] Cert.ReferenceIdeal.Facts₀.bcast_S1x64_S100000x64_0_1 B))
          (broadcastInDim Cert.ReferenceIdeal.S100000x64 ![] Cert.ReferenceIdeal.Facts₀.bcast_S_S100000x64 (constant (F := Ideal) Cert.ReferenceIdeal.S_ .f32 0x00000000#32))) i
      = max (A i + B k) (Ideal.ofBits .f32 0x00000000#32) := by
  rw [maximumf_apply, addf_apply,
    broadcastInDim_apply _ _ B i k (fun a => by
      match a with
      | ⟨0, _⟩ => exact hk0
      | ⟨1, _⟩ => exact hk1),
    broadcastInDim_apply _ _ (constant (F := Ideal) Cert.ReferenceIdeal.S_ .f32 0x00000000#32) i ix0 (fun a => a.elim0),
    constant_apply]

/-- A block entry against the array entry it is read from: when the block's entry at `(p, q)` is the array's at `i`
    and the bias block's entry of column `q` is the bias array's at `k`, an index of row 0 and of `i`'s column, the
    payload there is the host expression at `i`. -/
theorem pay1_eq_ref (A : FVec Ideal Cert.ReferenceIdeal.S100000x64 .f32) (B : FVec Ideal Cert.ReferenceIdeal.S1x64 .f32)
    (x0 : Vec Ideal S10000x64 .f32) (x1 : Vec Ideal S1x64 .f32) (p : Fin 10000) (q : Fin 64)
    (i : Cert.ReferenceIdeal.S100000x64.Idx) (k : Cert.ReferenceIdeal.S1x64.Idx)
    (h0 : x0 (ix2 p q) = A i) (h1 : x1 (ix2 (0 : Fin 1) q) = B k) (hk0 : (k 0).val = 0) (hk1 : (k 1).val = (i 1).val) :
    Gen.k1_pay1 x0 x1 (ix2 p q) = (maximumf (addf A
            (broadcastInDim Cert.ReferenceIdeal.S100000x64 ![0, 1] Cert.ReferenceIdeal.Facts₀.bcast_S1x64_S100000x64_0_1 B))
          (broadcastInDim Cert.ReferenceIdeal.S100000x64 ![] Cert.ReferenceIdeal.Facts₀.bcast_S_S100000x64 (constant (F := Ideal) Cert.ReferenceIdeal.S_ .f32 0x00000000#32))) i := by
  rw [pay1_apply, ref1_apply A B i k hk0 hk1, h0, h1]

/-- The index maps over the grid: the input block and the output block of point `t` are block row `t`, the bias
    row is always block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the host expression of the two arrays as the region finds them. -/
theorem flushed1_eq (V : (c : Dev nD) → (b : Ref sig .tc) → Buf (Elt Ideal) ((c : Thread nD τ).loc b)) (c : Dev nD) (t : Fin cfg1.N) :
    (Gen.dat1 (F := Ideal) V c).flushed 2 t = ((cfg1.win 2).blk t).view.read (Elt Ideal)
      (maximumf (addf (V c (Pipeline.arrRef spec1 0))
            (broadcastInDim Cert.ReferenceIdeal.S100000x64 ![0, 1] Cert.ReferenceIdeal.Facts₀.bcast_S1x64_S100000x64_0_1 (V c (Pipeline.arrRef spec1 1))))
          (broadcastInDim Cert.ReferenceIdeal.S100000x64 ![] Cert.ReferenceIdeal.Facts₀.bcast_S_S100000x64 (constant (F := Ideal) Cert.ReferenceIdeal.S_ .f32 0x00000000#32))) := by
  show (cfg1.win 2).cut (grid1.coords t) ((Gen.dat1 (F := Ideal) V c).after 2 t) = _
  rw [Gen.after1_2]
  unfold Gen.out1_2
  rw [View.canon_unit_zero off_zero]
  simp only [View.ld_unit_zero (S := S10000x64) off_zero, View.ld_unit_zero (S := S1x64) off_zero]
  obtain ⟨e0, e1, e2, e3, e4, e5⟩ := idx_facts1 t
  have key : ∀ y : S10000x64.Idx, Gen.k1_pay1 (Gen.iblk1 V c 0 t) (Gen.iblk1 V c 1 t) y
      = (maximumf (addf (V c (Pipeline.arrRef spec1 0))
            (broadcastInDim Cert.ReferenceIdeal.S100000x64 ![0, 1] Cert.ReferenceIdeal.Facts₀.bcast_S1x64_S100000x64_0_1 (V c (Pipeline.arrRef spec1 1))))
          (broadcastInDim Cert.ReferenceIdeal.S100000x64 ![] Cert.ReferenceIdeal.Facts₀.bcast_S_S100000x64 (constant (F := Ideal) Cert.ReferenceIdeal.S_ .f32 0x00000000#32)))
          (((cfg1.win 2).blk t).view.emb y) := by
    intro y
    obtain ⟨p, q, rfl⟩ : ∃ (p : Fin 10000) (q : Fin 64), y = ix2 p q := ⟨y 0, y 1, eq_ix2 y⟩
    refine pay1_eq_ref (V c (Pipeline.arrRef spec1 0)) (V c (Pipeline.arrRef spec1 1)) (Gen.iblk1 V c 0 t) (Gen.iblk1 V c 1 t) p q
      (((cfg1.win 2).blk t).view.emb (ix2 p q)) (((cfg1.win 1).blk t).view.emb (ix2 (0 : Fin 1) q)) ?_ rfl ?_ ?_
    · show V c (Pipeline.arrRef spec1 0) (((cfg1.win 0).blk t).view.emb (ix2 p q)) = V c (Pipeline.arrRef spec1 0) (((cfg1.win 2).blk t).view.emb (ix2 p q))
      refine congrArg _ (funext fun a => Fin.ext ?_)
      match a with
      | ⟨0, _⟩ => show win1_0.index t (0 : Fin 2) * 10000 + 1 * p.val = win1_2.index t (0 : Fin 2) * 10000 + 1 * p.val; omega
      | ⟨1, _⟩ => show win1_0.index t (1 : Fin 2) * 64 + 1 * q.val = win1_2.index t (1 : Fin 2) * 64 + 1 * q.val; omega
    · show win1_1.index t (0 : Fin 2) * 1 + 1 * (0 : Nat) = 0
      omega
    · show win1_1.index t (1 : Fin 2) * 64 + 1 * q.val = win1_2.index t (1 : Fin 2) * 64 + 1 * q.val
      omega
  funext j
  exact key j

/-- An index of the array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- Every row `r` of the array is in the block of point `r / 10000`. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := Gen.N_1
  have ht : (i 0).val / 10000 < cfg1.N := by show _ < grid1.N; rw [hN]; omega
  obtain ⟨-, -, -, -, e4, e5⟩ := idx_facts1 ⟨(i 0).val / 10000, ht⟩
  refine ⟨⟨(i 0).val / 10000, ht⟩, Gen.flush1_2 _, ?_⟩
  rw [mem_blk1]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

/-- After region 1 the output array is the host expression of the region-entry contents of its two input arrays:
    every block is the expression's block, and the blocks cover the array. -/
theorem region1 (V : (c : Dev nD) → (b : Ref sig .tc) → Buf (Elt Ideal) ((c : Thread nD τ).loc b)) (c : Dev nD) :
    (Gen.dat1 (F := Ideal) V c).arrAt 2 cfg1.N
      = maximumf (addf (V c (Pipeline.arrRef spec1 0))
            (broadcastInDim Cert.ReferenceIdeal.S100000x64 ![0, 1] Cert.ReferenceIdeal.Facts₀.bcast_S1x64_S100000x64_0_1 (V c (Pipeline.arrRef spec1 1))))
          (broadcastInDim Cert.ReferenceIdeal.S100000x64 ![] Cert.ReferenceIdeal.Facts₀.bcast_S_S100000x64 (constant (F := Ideal) Cert.ReferenceIdeal.S_ .f32 0x00000000#32)) :=
  (Gen.dat1 (F := Ideal) V c).arrAt_eq_of_cover 2 _ (fun t _ => flushed1_eq V c t) cover1

/-! ## Region 3: a bias row added to every row of the block, then the maximum with zero -/

/-- The body's payload at row `p`, column `q` of the block: the block's entry plus the bias row's entry of
    that column, and the larger of that and zero. -/
theorem pay3_apply (x0 : Vec Ideal S10000x64 .f32) (x1 : Vec Ideal S1x64 .f32) (p : Fin 10000) (q : Fin 64) :
    Gen.k3_pay1 x0 x1 (ix2 p q) = max (x0 (ix2 p q) + x1 (ix2 (0 : Fin 1) q)) (Ideal.ofBits .f32 0x00000000#32) := by
  unfold Gen.k3_pay1
  rw [maximumf_apply, addf_apply, broadcast_apply, shapeCast_self, shapeCast_self, broadcastTo_1b_ab_apply]
  rfl

/-- The host expression at an index `i` of the whole array: the entry plus the bias row's entry `k` of the same
    column, and the larger of that and zero. -/
theorem ref3_apply (A : FVec Ideal Cert.ReferenceIdeal.S100000x64 .f32) (B : FVec Ideal Cert.ReferenceIdeal.S1x64 .f32)
    (i : Cert.ReferenceIdeal.S100000x64.Idx) (k : Cert.ReferenceIdeal.S1x64.Idx) (hk0 : (k 0).val = 0) (hk1 : (k 1).val = (i 1).val) :
    (maximumf (addf A
            (broadcastInDim Cert.ReferenceIdeal.S100000x64 ![0, 1] Cert.ReferenceIdeal.Facts₀.bcast_S1x64_S100000x64_0_1 B))
          (broadcastInDim Cert.ReferenceIdeal.S100000x64 ![] Cert.ReferenceIdeal.Facts₀.bcast_S_S100000x64 (constant (F := Ideal) Cert.ReferenceIdeal.S_ .f32 0x00000000#32))) i
      = max (A i + B k) (Ideal.ofBits .f32 0x00000000#32) := by
  rw [maximumf_apply, addf_apply,
    broadcastInDim_apply _ _ B i k (fun a => by
      match a with
      | ⟨0, _⟩ => exact hk0
      | ⟨1, _⟩ => exact hk1),
    broadcastInDim_apply _ _ (constant (F := Ideal) Cert.ReferenceIdeal.S_ .f32 0x00000000#32) i ix0 (fun a => a.elim0),
    constant_apply]

/-- A block entry against the array entry it is read from: when the block's entry at `(p, q)` is the array's at `i`
    and the bias block's entry of column `q` is the bias array's at `k`, an index of row 0 and of `i`'s column, the
    payload there is the host expression at `i`. -/
theorem pay3_eq_ref (A : FVec Ideal Cert.ReferenceIdeal.S100000x64 .f32) (B : FVec Ideal Cert.ReferenceIdeal.S1x64 .f32)
    (x0 : Vec Ideal S10000x64 .f32) (x1 : Vec Ideal S1x64 .f32) (p : Fin 10000) (q : Fin 64)
    (i : Cert.ReferenceIdeal.S100000x64.Idx) (k : Cert.ReferenceIdeal.S1x64.Idx)
    (h0 : x0 (ix2 p q) = A i) (h1 : x1 (ix2 (0 : Fin 1) q) = B k) (hk0 : (k 0).val = 0) (hk1 : (k 1).val = (i 1).val) :
    Gen.k3_pay1 x0 x1 (ix2 p q) = (maximumf (addf A
            (broadcastInDim Cert.ReferenceIdeal.S100000x64 ![0, 1] Cert.ReferenceIdeal.Facts₀.bcast_S1x64_S100000x64_0_1 B))
          (broadcastInDim Cert.ReferenceIdeal.S100000x64 ![] Cert.ReferenceIdeal.Facts₀.bcast_S_S100000x64 (constant (F := Ideal) Cert.ReferenceIdeal.S_ .f32 0x00000000#32))) i := by
  rw [pay3_apply, ref3_apply A B i k hk0 hk1, h0, h1]

/-- The index maps over the grid: the input block and the output block of point `t` are block row `t`, the bias
    row is always block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the host expression of the two arrays as the region finds them. -/
theorem flushed3_eq (V : (c : Dev nD) → (b : Ref sig .tc) → Buf (Elt Ideal) ((c : Thread nD τ).loc b)) (c : Dev nD) (t : Fin cfg3.N) :
    (Gen.dat3 (F := Ideal) V c).flushed 2 t = ((cfg3.win 2).blk t).view.read (Elt Ideal)
      (maximumf (addf (V c (Pipeline.arrRef spec3 0))
            (broadcastInDim Cert.ReferenceIdeal.S100000x64 ![0, 1] Cert.ReferenceIdeal.Facts₀.bcast_S1x64_S100000x64_0_1 (V c (Pipeline.arrRef spec3 1))))
          (broadcastInDim Cert.ReferenceIdeal.S100000x64 ![] Cert.ReferenceIdeal.Facts₀.bcast_S_S100000x64 (constant (F := Ideal) Cert.ReferenceIdeal.S_ .f32 0x00000000#32))) := by
  show (cfg3.win 2).cut (grid3.coords t) ((Gen.dat3 (F := Ideal) V c).after 2 t) = _
  rw [Gen.after3_2]
  unfold Gen.out3_2
  rw [View.canon_unit_zero off_zero]
  simp only [View.ld_unit_zero (S := S10000x64) off_zero, View.ld_unit_zero (S := S1x64) off_zero]
  obtain ⟨e0, e1, e2, e3, e4, e5⟩ := idx_facts3 t
  have key : ∀ y : S10000x64.Idx, Gen.k3_pay1 (Gen.iblk3 V c 0 t) (Gen.iblk3 V c 1 t) y
      = (maximumf (addf (V c (Pipeline.arrRef spec3 0))
            (broadcastInDim Cert.ReferenceIdeal.S100000x64 ![0, 1] Cert.ReferenceIdeal.Facts₀.bcast_S1x64_S100000x64_0_1 (V c (Pipeline.arrRef spec3 1))))
          (broadcastInDim Cert.ReferenceIdeal.S100000x64 ![] Cert.ReferenceIdeal.Facts₀.bcast_S_S100000x64 (constant (F := Ideal) Cert.ReferenceIdeal.S_ .f32 0x00000000#32)))
          (((cfg3.win 2).blk t).view.emb y) := by
    intro y
    obtain ⟨p, q, rfl⟩ : ∃ (p : Fin 10000) (q : Fin 64), y = ix2 p q := ⟨y 0, y 1, eq_ix2 y⟩
    refine pay3_eq_ref (V c (Pipeline.arrRef spec3 0)) (V c (Pipeline.arrRef spec3 1)) (Gen.iblk3 V c 0 t) (Gen.iblk3 V c 1 t) p q
      (((cfg3.win 2).blk t).view.emb (ix2 p q)) (((cfg3.win 1).blk t).view.emb (ix2 (0 : Fin 1) q)) ?_ rfl ?_ ?_
    · show V c (Pipeline.arrRef spec3 0) (((cfg3.win 0).blk t).view.emb (ix2 p q)) = V c (Pipeline.arrRef spec3 0) (((cfg3.win 2).blk t).view.emb (ix2 p q))
      refine congrArg _ (funext fun a => Fin.ext ?_)
      match a with
      | ⟨0, _⟩ => show win3_0.index t (0 : Fin 2) * 10000 + 1 * p.val = win3_2.index t (0 : Fin 2) * 10000 + 1 * p.val; omega
      | ⟨1, _⟩ => show win3_0.index t (1 : Fin 2) * 64 + 1 * q.val = win3_2.index t (1 : Fin 2) * 64 + 1 * q.val; omega
    · show win3_1.index t (0 : Fin 2) * 1 + 1 * (0 : Nat) = 0
      omega
    · show win3_1.index t (1 : Fin 2) * 64 + 1 * q.val = win3_2.index t (1 : Fin 2) * 64 + 1 * q.val
      omega
  funext j
  exact key j

/-- An index of the array is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v65).slice (win3_2.rect t)).set ↔ _
  rw [View.set_slice_whole, Rect.mem_set_unit]
  exact Iff.rfl

/-- Every row `r` of the array is in the block of point `r / 10000`. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := Gen.N_3
  have ht : (i 0).val / 10000 < cfg3.N := by show _ < grid3.N; rw [hN]; omega
  obtain ⟨-, -, -, -, e4, e5⟩ := idx_facts3 ⟨(i 0).val / 10000, ht⟩
  refine ⟨⟨(i 0).val / 10000, ht⟩, Gen.flush3_2 _, ?_⟩
  rw [mem_blk3]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 64 ≤ (i 1).val ∧ (i 1).val < win3_2.index ⟨(i 0).val / 10000, ht⟩ (1 : Fin 2) * 64 + 64
    rw [e5]; omega

/-- After region 3 the output array is the host expression of the region-entry contents of its two input arrays:
    every block is the expression's block, and the blocks cover the array. -/
theorem region3 (V : (c : Dev nD) → (b : Ref sig .tc) → Buf (Elt Ideal) ((c : Thread nD τ).loc b)) (c : Dev nD) :
    (Gen.dat3 (F := Ideal) V c).arrAt 2 cfg3.N
      = maximumf (addf (V c (Pipeline.arrRef spec3 0))
            (broadcastInDim Cert.ReferenceIdeal.S100000x64 ![0, 1] Cert.ReferenceIdeal.Facts₀.bcast_S1x64_S100000x64_0_1 (V c (Pipeline.arrRef spec3 1))))
          (broadcastInDim Cert.ReferenceIdeal.S100000x64 ![] Cert.ReferenceIdeal.Facts₀.bcast_S_S100000x64 (constant (F := Ideal) Cert.ReferenceIdeal.S_ .f32 0x00000000#32)) :=
  (Gen.dat3 (F := Ideal) V c).arrAt_eq_of_cover 2 _ (fun t _ => flushed3_eq V c t) cover3

/-! ## Region 5: a bias row added to every row of the block -/

/-- The body's payload at row `p`, column `q` of the block: the block's entry plus the bias row's entry of
    that column. -/
theorem pay5_apply (x0 : Vec Ideal S10000x64 .f32) (x1 : Vec Ideal S1x64 .f32) (p : Fin 10000) (q : Fin 64) :
    Gen.k5_pay1 x0 x1 (ix2 p q) = x0 (ix2 p q) + x1 (ix2 (0 : Fin 1) q) := by
  unfold Gen.k5_pay1
  rw [addf_apply, shapeCast_self, shapeCast_self, broadcastTo_1b_ab_apply]

/-- The host expression at an index `i` of the whole array: the entry plus the bias row's entry `k` of the same
    column. -/
theorem ref5_apply (A : FVec Ideal Cert.ReferenceIdeal.S100000x64 .f32) (B : FVec Ideal Cert.ReferenceIdeal.S1x64 .f32)
    (i : Cert.ReferenceIdeal.S100000x64.Idx) (k : Cert.ReferenceIdeal.S1x64.Idx) (hk0 : (k 0).val = 0) (hk1 : (k 1).val = (i 1).val) :
    (addf A
            (broadcastInDim Cert.ReferenceIdeal.S100000x64 ![0, 1] Cert.ReferenceIdeal.Facts₀.bcast_S1x64_S100000x64_0_1 B)
          : FVec Ideal Cert.ReferenceIdeal.S100000x64 .f32) i
      = A i + B k := by
  rw [addf_apply,
    broadcastInDim_apply _ _ B i k (fun a => by
      match a with
      | ⟨0, _⟩ => exact hk0
      | ⟨1, _⟩ => exact hk1)]

/-- A block entry against the array entry it is read from: when the block's entry at `(p, q)` is the array's at `i`
    and the bias block's entry of column `q` is the bias array's at `k`, an index of row 0 and of `i`'s column, the
    payload there is the host expression at `i`. -/
theorem pay5_eq_ref (A : FVec Ideal Cert.ReferenceIdeal.S100000x64 .f32) (B : FVec Ideal Cert.ReferenceIdeal.S1x64 .f32)
    (x0 : Vec Ideal S10000x64 .f32) (x1 : Vec Ideal S1x64 .f32) (p : Fin 10000) (q : Fin 64)
    (i : Cert.ReferenceIdeal.S100000x64.Idx) (k : Cert.ReferenceIdeal.S1x64.Idx)
    (h0 : x0 (ix2 p q) = A i) (h1 : x1 (ix2 (0 : Fin 1) q) = B k) (hk0 : (k 0).val = 0) (hk1 : (k 1).val = (i 1).val) :
    Gen.k5_pay1 x0 x1 (ix2 p q) = (addf A
            (broadcastInDim Cert.ReferenceIdeal.S100000x64 ![0, 1] Cert.ReferenceIdeal.Facts₀.bcast_S1x64_S100000x64_0_1 B)
          : FVec Ideal Cert.ReferenceIdeal.S100000x64 .f32) i := by
  rw [pay5_apply, ref5_apply A B i k hk0 hk1, h0, h1]

/-- The index maps over the grid: the input block and the output block of point `t` are block row `t`, the bias
    row is always block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the host expression of the two arrays as the region finds them. -/
theorem flushed5_eq (V : (c : Dev nD) → (b : Ref sig .tc) → Buf (Elt Ideal) ((c : Thread nD τ).loc b)) (c : Dev nD) (t : Fin cfg5.N) :
    (Gen.dat5 (F := Ideal) V c).flushed 2 t = ((cfg5.win 2).blk t).view.read (Elt Ideal)
      ((addf (V c (Pipeline.arrRef spec5 0))
            (broadcastInDim Cert.ReferenceIdeal.S100000x64 ![0, 1] Cert.ReferenceIdeal.Facts₀.bcast_S1x64_S100000x64_0_1 (V c (Pipeline.arrRef spec5 1)))
          : FVec Ideal Cert.ReferenceIdeal.S100000x64 .f32)) := by
  show (cfg5.win 2).cut (grid5.coords t) ((Gen.dat5 (F := Ideal) V c).after 2 t) = _
  rw [Gen.after5_2]
  unfold Gen.out5_2
  rw [View.canon_unit_zero off_zero]
  simp only [View.ld_unit_zero (S := S10000x64) off_zero, View.ld_unit_zero (S := S1x64) off_zero]
  obtain ⟨e0, e1, e2, e3, e4, e5⟩ := idx_facts5 t
  have key : ∀ y : S10000x64.Idx, Gen.k5_pay1 (Gen.iblk5 V c 0 t) (Gen.iblk5 V c 1 t) y
      = ((addf (V c (Pipeline.arrRef spec5 0))
            (broadcastInDim Cert.ReferenceIdeal.S100000x64 ![0, 1] Cert.ReferenceIdeal.Facts₀.bcast_S1x64_S100000x64_0_1 (V c (Pipeline.arrRef spec5 1)))
          : FVec Ideal Cert.ReferenceIdeal.S100000x64 .f32))
          (((cfg5.win 2).blk t).view.emb y) := by
    intro y
    obtain ⟨p, q, rfl⟩ : ∃ (p : Fin 10000) (q : Fin 64), y = ix2 p q := ⟨y 0, y 1, eq_ix2 y⟩
    refine pay5_eq_ref (V c (Pipeline.arrRef spec5 0)) (V c (Pipeline.arrRef spec5 1)) (Gen.iblk5 V c 0 t) (Gen.iblk5 V c 1 t) p q
      (((cfg5.win 2).blk t).view.emb (ix2 p q)) (((cfg5.win 1).blk t).view.emb (ix2 (0 : Fin 1) q)) ?_ rfl ?_ ?_
    · show V c (Pipeline.arrRef spec5 0) (((cfg5.win 0).blk t).view.emb (ix2 p q)) = V c (Pipeline.arrRef spec5 0) (((cfg5.win 2).blk t).view.emb (ix2 p q))
      refine congrArg _ (funext fun a => Fin.ext ?_)
      match a with
      | ⟨0, _⟩ => show win5_0.index t (0 : Fin 2) * 10000 + 1 * p.val = win5_2.index t (0 : Fin 2) * 10000 + 1 * p.val; omega
      | ⟨1, _⟩ => show win5_0.index t (1 : Fin 2) * 64 + 1 * q.val = win5_2.index t (1 : Fin 2) * 64 + 1 * q.val; omega
    · show win5_1.index t (0 : Fin 2) * 1 + 1 * (0 : Nat) = 0
      omega
    · show win5_1.index t (1 : Fin 2) * 64 + 1 * q.val = win5_2.index t (1 : Fin 2) * 64 + 1 * q.val
      omega
  funext j
  exact key j

/-- An index of the array is in point `t`'s block iff each coordinate is in the block's range on its axis. -/
theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v81).slice (win5_2.rect t)).set ↔ _
  rw [View.set_slice_whole, Rect.mem_set_unit]
  exact Iff.rfl

/-- Every row `r` of the array is in the block of point `r / 10000`. -/
theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : grid5.N = 10 := Gen.N_5
  have ht : (i 0).val / 10000 < cfg5.N := by show _ < grid5.N; rw [hN]; omega
  obtain ⟨-, -, -, -, e4, e5⟩ := idx_facts5 ⟨(i 0).val / 10000, ht⟩
  refine ⟨⟨(i 0).val / 10000, ht⟩, Gen.flush5_2 _, ?_⟩
  rw [mem_blk5]
  intro a
  match a with
  | ⟨0, _⟩ =>
    show win5_2.index ⟨(i 0).val / 10000, ht⟩ (0 : Fin 2) * 10000 ≤ (i 0).val ∧ (i 0).val < win5_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, ht⟩ (1 : Fin 2) * 64 ≤ (i 1).val ∧ (i 1).val < win5_2.index ⟨(i 0).val / 10000, ht⟩ (1 : Fin 2) * 64 + 64
    rw [e5]; omega

/-- After region 5 the output array is the host expression of the region-entry contents of its two input arrays:
    every block is the expression's block, and the blocks cover the array. -/
theorem region5 (V : (c : Dev nD) → (b : Ref sig .tc) → Buf (Elt Ideal) ((c : Thread nD τ).loc b)) (c : Dev nD) :
    (Gen.dat5 (F := Ideal) V c).arrAt 2 cfg5.N
      = (addf (V c (Pipeline.arrRef spec5 0))
            (broadcastInDim Cert.ReferenceIdeal.S100000x64 ![0, 1] Cert.ReferenceIdeal.Facts₀.bcast_S1x64_S100000x64_0_1 (V c (Pipeline.arrRef spec5 1)))
          : FVec Ideal Cert.ReferenceIdeal.S100000x64 .f32) :=
  (Gen.dat5 (F := Ideal) V c).arrAt_eq_of_cover 2 _ (fun t _ => flushed5_eq V c t) cover5

/-! ## The bias as a row -/

/-- A vector of 64 entries recast as one row of 64 is the vector broadcast along a new leading axis: both read, at
    `(0, q)`, the vector's entry `q`. -/
theorem bias_row (b : FVec Ideal S64 .f32) :
    shapeCast S1x64 b shapeCasts_S64_S1x64 = broadcastInDim Cert.ReferenceIdeal.S1x64 ![1] Cert.ReferenceIdeal.Facts₀.bcast_S64_S1x64_1 b := by
  funext j
  obtain ⟨u, q, rfl⟩ : ∃ (u : Fin 1) (q : Fin 64), j = ix2 u q := ⟨j 0, j 1, eq_ix2 j⟩
  rw [shapeCast_a_1a_apply]
  exact (broadcastInDim_apply _ _ b (ix2 u q) (ix1 q) (fun a => by
    match a with
    | ⟨0, _⟩ => rfl)).symm

end Cert.KernelIdeal.BiasRegion

end
-- ==== Proof.KernelValue.lean ====
/-
  The idealized kernel program's result, as the pipeline of its nine arguments.

  The run leaves the result buffer at the last contents of a fold through the program's segments. The fold is followed
  from the launch: the host operations before the first region leave the source and target vectors, the edge
  normalisation and the untouched arguments; a projection region leaves its output array at the whole matrix product of
  the contents it found in its two input arrays; the host operations after it leave the summed messages and the bias as
  a 1 × 64 row; a bias region leaves its output array at the sum with the bias row broadcast (and, in the first two
  layers, the positive part); a region changes no buffer but its output array, a stretch of host operations none but
  the ones it writes. At every boundary each buffer a later step reads is thus a named step of the pipeline applied to
  the launch contents of the arguments, and the last stretch — the sum per graph — makes the result the whole pipeline.
  Over the extended reals a change of float format is the identity, so the kernel's projection of rounded operands is
  the plain matrix product.
-/
import proofs.«138898_j15547781611787_1_alg».proof.Proof.Gen.KernelIdeal.Frame
import proofs.«138898_j15547781611787_1_alg».proof.Proof.Gen.ReferenceIdeal
import proofs.«138898_j15547781611787_1_alg».proof.Proof.RefSpec
import proofs.«138898_j15547781611787_1_alg».proof.Proof.KernelHost
import proofs.«138898_j15547781611787_1_alg».proof.Proof.MatmulRegion
import proofs.«138898_j15547781611787_1_alg».proof.Proof.BiasRegion

set_option maxRecDepth 16384

noncomputable section

namespace Cert.KernelIdeal.Net

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-- The bias as a 1 × 64 row: the kernel program's reshape is the reference's broadcast along a new leading axis. -/
theorem biasRow_eq (b : (⟨S64, .f32⟩ : BufTy).Contents (Elt Ideal)) :
    HostSteps.biasRow b = Cert.ReferenceIdeal.Spec.asRow b :=
  BiasRegion.bias_row b

/-! ## The buffers carried from boundary to boundary

`atK_b`: at the K-th boundary of the fold the buffer `b` holds the named value. -/

theorem at3_v7 : W3 m ρ c (Proc.devRef .tc main_v7) = (Cert.ReferenceIdeal.Spec.row (m ((c : Thread nD τ).loc main_arg1))) :=
  (congrFun (HostSteps.before_region0 (W0 m ρ c)) _).trans ((HostSteps.mid_v7 _).trans (HostSteps.first_row _))

theorem at3_v8 : W3 m ρ c (Proc.devRef .tc main_v8) = (Cert.ReferenceIdeal.Spec.col (m ((c : Thread nD τ).loc main_arg1))) :=
  (congrFun (HostSteps.before_region0 (W0 m ρ c)) _).trans ((HostSteps.mid_v8 _).trans (HostSteps.first_col _))

theorem at3_v33 : W3 m ρ c (Proc.devRef .tc main_v33) = (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1)))) := by
  refine (congrFun (HostSteps.before_region0 (W0 m ρ c)) _).trans ((HostSteps.mid_norm _).trans ?_)
  rw [HostSteps.first_row, HostSteps.first_col, HostSteps.first_ew]

theorem at3_arg0 : W3 m ρ c (Proc.devRef .tc main_arg0) = (m ((c : Thread nD τ).loc main_arg0)) :=
  (congrFun (HostSteps.before_region0 (W0 m ρ c)) _).trans ((HostSteps.mid_arg0 _).trans (HostSteps.first_arg0 _))

theorem at3_arg2 : W3 m ρ c (Proc.devRef .tc main_arg2) = (m ((c : Thread nD τ).loc main_arg2)) :=
  (congrFun (HostSteps.before_region0 (W0 m ρ c)) _).trans ((HostSteps.mid_arg2 _).trans (HostSteps.first_arg2 _))

theorem at3_arg3 : W3 m ρ c (Proc.devRef .tc main_arg3) = (m ((c : Thread nD τ).loc main_arg3)) :=
  (congrFun (HostSteps.before_region0 (W0 m ρ c)) _).trans ((HostSteps.mid_arg3 _).trans (HostSteps.first_arg3 _))

theorem at3_arg4 : W3 m ρ c (Proc.devRef .tc main_arg4) = (m ((c : Thread nD τ).loc main_arg4)) :=
  (congrFun (HostSteps.before_region0 (W0 m ρ c)) _).trans ((HostSteps.mid_arg4 _).trans (HostSteps.first_arg4 _))

theorem at3_arg5 : W3 m ρ c (Proc.devRef .tc main_arg5) = (m ((c : Thread nD τ).loc main_arg5)) :=
  (congrFun (HostSteps.before_region0 (W0 m ρ c)) _).trans ((HostSteps.mid_arg5 _).trans (HostSteps.first_arg5 _))

theorem at3_arg6 : W3 m ρ c (Proc.devRef .tc main_arg6) = (m ((c : Thread nD τ).loc main_arg6)) :=
  (congrFun (HostSteps.before_region0 (W0 m ρ c)) _).trans ((HostSteps.mid_arg6 _).trans (HostSteps.first_arg6 _))

theorem at3_arg7 : W3 m ρ c (Proc.devRef .tc main_arg7) = (m ((c : Thread nD τ).loc main_arg7)) :=
  (congrFun (HostSteps.before_region0 (W0 m ρ c)) _).trans ((HostSteps.mid_arg7 _).trans (HostSteps.first_arg7 _))

theorem at3_arg8 : W3 m ρ c (Proc.devRef .tc main_arg8) = (m ((c : Thread nD τ).loc main_arg8)) :=
  (congrFun (HostSteps.before_region0 (W0 m ρ c)) _).trans ((HostSteps.mid_arg8 _).trans (HostSteps.first_arg8 _))

theorem at4_v7 : W4 m ρ c (Proc.devRef .tc main_v7) = (Cert.ReferenceIdeal.Spec.row (m ((c : Thread nD τ).loc main_arg1))) :=
  (W4_of_ne m ρ c main_v7 (by decide)).trans (at3_v7 m ρ c)

theorem at4_v8 : W4 m ρ c (Proc.devRef .tc main_v8) = (Cert.ReferenceIdeal.Spec.col (m ((c : Thread nD τ).loc main_arg1))) :=
  (W4_of_ne m ρ c main_v8 (by decide)).trans (at3_v8 m ρ c)

theorem at4_v33 : W4 m ρ c (Proc.devRef .tc main_v33) = (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1)))) :=
  (W4_of_ne m ρ c main_v33 (by decide)).trans (at3_v33 m ρ c)

theorem at4_arg2 : W4 m ρ c (Proc.devRef .tc main_arg2) = (m ((c : Thread nD τ).loc main_arg2)) :=
  (W4_of_ne m ρ c main_arg2 (by decide)).trans (at3_arg2 m ρ c)

theorem at4_arg4 : W4 m ρ c (Proc.devRef .tc main_arg4) = (m ((c : Thread nD τ).loc main_arg4)) :=
  (W4_of_ne m ρ c main_arg4 (by decide)).trans (at3_arg4 m ρ c)

theorem at4_arg5 : W4 m ρ c (Proc.devRef .tc main_arg5) = (m ((c : Thread nD τ).loc main_arg5)) :=
  (W4_of_ne m ρ c main_arg5 (by decide)).trans (at3_arg5 m ρ c)

theorem at4_arg6 : W4 m ρ c (Proc.devRef .tc main_arg6) = (m ((c : Thread nD τ).loc main_arg6)) :=
  (W4_of_ne m ρ c main_arg6 (by decide)).trans (at3_arg6 m ρ c)

theorem at4_arg7 : W4 m ρ c (Proc.devRef .tc main_arg7) = (m ((c : Thread nD τ).loc main_arg7)) :=
  (W4_of_ne m ρ c main_arg7 (by decide)).trans (at3_arg7 m ρ c)

theorem at4_arg8 : W4 m ρ c (Proc.devRef .tc main_arg8) = (m ((c : Thread nD τ).loc main_arg8)) :=
  (W4_of_ne m ρ c main_arg8 (by decide)).trans (at3_arg8 m ρ c)

theorem at5_v7 : W5 m ρ c (Proc.devRef .tc main_v7) = (Cert.ReferenceIdeal.Spec.row (m ((c : Thread nD τ).loc main_arg1))) :=
  (HostSteps.ops1_v7 (W4 m ρ c)).trans (at4_v7 m ρ c)

theorem at5_v8 : W5 m ρ c (Proc.devRef .tc main_v8) = (Cert.ReferenceIdeal.Spec.col (m ((c : Thread nD τ).loc main_arg1))) :=
  (HostSteps.ops1_v8 (W4 m ρ c)).trans (at4_v8 m ρ c)

theorem at5_v33 : W5 m ρ c (Proc.devRef .tc main_v33) = (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1)))) :=
  (HostSteps.ops1_v33 (W4 m ρ c)).trans (at4_v33 m ρ c)

theorem at5_arg2 : W5 m ρ c (Proc.devRef .tc main_arg2) = (m ((c : Thread nD τ).loc main_arg2)) :=
  (HostSteps.ops1_arg2 (W4 m ρ c)).trans (at4_arg2 m ρ c)

theorem at5_arg5 : W5 m ρ c (Proc.devRef .tc main_arg5) = (m ((c : Thread nD τ).loc main_arg5)) :=
  (HostSteps.ops1_arg5 (W4 m ρ c)).trans (at4_arg5 m ρ c)

theorem at5_arg6 : W5 m ρ c (Proc.devRef .tc main_arg6) = (m ((c : Thread nD τ).loc main_arg6)) :=
  (HostSteps.ops1_arg6 (W4 m ρ c)).trans (at4_arg6 m ρ c)

theorem at5_arg7 : W5 m ρ c (Proc.devRef .tc main_arg7) = (m ((c : Thread nD τ).loc main_arg7)) :=
  (HostSteps.ops1_arg7 (W4 m ρ c)).trans (at4_arg7 m ρ c)

theorem at5_arg8 : W5 m ρ c (Proc.devRef .tc main_arg8) = (m ((c : Thread nD τ).loc main_arg8)) :=
  (HostSteps.ops1_arg8 (W4 m ρ c)).trans (at4_arg8 m ρ c)

theorem at6_v7 : W6 m ρ c (Proc.devRef .tc main_v7) = (Cert.ReferenceIdeal.Spec.row (m ((c : Thread nD τ).loc main_arg1))) :=
  (W6_of_ne m ρ c main_v7 (by decide)).trans (at5_v7 m ρ c)

theorem at6_v8 : W6 m ρ c (Proc.devRef .tc main_v8) = (Cert.ReferenceIdeal.Spec.col (m ((c : Thread nD τ).loc main_arg1))) :=
  (W6_of_ne m ρ c main_v8 (by decide)).trans (at5_v8 m ρ c)

theorem at6_v33 : W6 m ρ c (Proc.devRef .tc main_v33) = (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1)))) :=
  (W6_of_ne m ρ c main_v33 (by decide)).trans (at5_v33 m ρ c)

theorem at6_arg2 : W6 m ρ c (Proc.devRef .tc main_arg2) = (m ((c : Thread nD τ).loc main_arg2)) :=
  (W6_of_ne m ρ c main_arg2 (by decide)).trans (at5_arg2 m ρ c)

theorem at6_arg5 : W6 m ρ c (Proc.devRef .tc main_arg5) = (m ((c : Thread nD τ).loc main_arg5)) :=
  (W6_of_ne m ρ c main_arg5 (by decide)).trans (at5_arg5 m ρ c)

theorem at6_arg6 : W6 m ρ c (Proc.devRef .tc main_arg6) = (m ((c : Thread nD τ).loc main_arg6)) :=
  (W6_of_ne m ρ c main_arg6 (by decide)).trans (at5_arg6 m ρ c)

theorem at6_arg7 : W6 m ρ c (Proc.devRef .tc main_arg7) = (m ((c : Thread nD τ).loc main_arg7)) :=
  (W6_of_ne m ρ c main_arg7 (by decide)).trans (at5_arg7 m ρ c)

theorem at6_arg8 : W6 m ρ c (Proc.devRef .tc main_arg8) = (m ((c : Thread nD τ).loc main_arg8)) :=
  (W6_of_ne m ρ c main_arg8 (by decide)).trans (at5_arg8 m ρ c)

theorem at7_v7 : W7 m ρ c (Proc.devRef .tc main_v7) = (Cert.ReferenceIdeal.Spec.row (m ((c : Thread nD τ).loc main_arg1))) :=
  (W7_of_ne m ρ c main_v7 (by decide)).trans (at6_v7 m ρ c)

theorem at7_v8 : W7 m ρ c (Proc.devRef .tc main_v8) = (Cert.ReferenceIdeal.Spec.col (m ((c : Thread nD τ).loc main_arg1))) :=
  (W7_of_ne m ρ c main_v8 (by decide)).trans (at6_v8 m ρ c)

theorem at7_v33 : W7 m ρ c (Proc.devRef .tc main_v33) = (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1)))) :=
  (W7_of_ne m ρ c main_v33 (by decide)).trans (at6_v33 m ρ c)

theorem at7_arg2 : W7 m ρ c (Proc.devRef .tc main_arg2) = (m ((c : Thread nD τ).loc main_arg2)) :=
  (W7_of_ne m ρ c main_arg2 (by decide)).trans (at6_arg2 m ρ c)

theorem at7_arg6 : W7 m ρ c (Proc.devRef .tc main_arg6) = (m ((c : Thread nD τ).loc main_arg6)) :=
  (W7_of_ne m ρ c main_arg6 (by decide)).trans (at6_arg6 m ρ c)

theorem at7_arg7 : W7 m ρ c (Proc.devRef .tc main_arg7) = (m ((c : Thread nD τ).loc main_arg7)) :=
  (W7_of_ne m ρ c main_arg7 (by decide)).trans (at6_arg7 m ρ c)

theorem at7_arg8 : W7 m ρ c (Proc.devRef .tc main_arg8) = (m ((c : Thread nD τ).loc main_arg8)) :=
  (W7_of_ne m ρ c main_arg8 (by decide)).trans (at6_arg8 m ρ c)

theorem at8_v7 : W8 m ρ c (Proc.devRef .tc main_v7) = (Cert.ReferenceIdeal.Spec.row (m ((c : Thread nD τ).loc main_arg1))) :=
  (HostSteps.ops3_v7 (W7 m ρ c)).trans (at7_v7 m ρ c)

theorem at8_v8 : W8 m ρ c (Proc.devRef .tc main_v8) = (Cert.ReferenceIdeal.Spec.col (m ((c : Thread nD τ).loc main_arg1))) :=
  (HostSteps.ops3_v8 (W7 m ρ c)).trans (at7_v8 m ρ c)

theorem at8_v33 : W8 m ρ c (Proc.devRef .tc main_v33) = (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1)))) :=
  (HostSteps.ops3_v33 (W7 m ρ c)).trans (at7_v33 m ρ c)

theorem at8_arg2 : W8 m ρ c (Proc.devRef .tc main_arg2) = (m ((c : Thread nD τ).loc main_arg2)) :=
  (HostSteps.ops3_arg2 (W7 m ρ c)).trans (at7_arg2 m ρ c)

theorem at8_arg7 : W8 m ρ c (Proc.devRef .tc main_arg7) = (m ((c : Thread nD τ).loc main_arg7)) :=
  (HostSteps.ops3_arg7 (W7 m ρ c)).trans (at7_arg7 m ρ c)

theorem at8_arg8 : W8 m ρ c (Proc.devRef .tc main_arg8) = (m ((c : Thread nD τ).loc main_arg8)) :=
  (HostSteps.ops3_arg8 (W7 m ρ c)).trans (at7_arg8 m ρ c)

theorem at9_v7 : W9 m ρ c (Proc.devRef .tc main_v7) = (Cert.ReferenceIdeal.Spec.row (m ((c : Thread nD τ).loc main_arg1))) :=
  (W9_of_ne m ρ c main_v7 (by decide)).trans (at8_v7 m ρ c)

theorem at9_v8 : W9 m ρ c (Proc.devRef .tc main_v8) = (Cert.ReferenceIdeal.Spec.col (m ((c : Thread nD τ).loc main_arg1))) :=
  (W9_of_ne m ρ c main_v8 (by decide)).trans (at8_v8 m ρ c)

theorem at9_v33 : W9 m ρ c (Proc.devRef .tc main_v33) = (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1)))) :=
  (W9_of_ne m ρ c main_v33 (by decide)).trans (at8_v33 m ρ c)

theorem at9_arg2 : W9 m ρ c (Proc.devRef .tc main_arg2) = (m ((c : Thread nD τ).loc main_arg2)) :=
  (W9_of_ne m ρ c main_arg2 (by decide)).trans (at8_arg2 m ρ c)

theorem at9_arg7 : W9 m ρ c (Proc.devRef .tc main_arg7) = (m ((c : Thread nD τ).loc main_arg7)) :=
  (W9_of_ne m ρ c main_arg7 (by decide)).trans (at8_arg7 m ρ c)

theorem at9_arg8 : W9 m ρ c (Proc.devRef .tc main_arg8) = (m ((c : Thread nD τ).loc main_arg8)) :=
  (W9_of_ne m ρ c main_arg8 (by decide)).trans (at8_arg8 m ρ c)

theorem at10_v7 : W10 m ρ c (Proc.devRef .tc main_v7) = (Cert.ReferenceIdeal.Spec.row (m ((c : Thread nD τ).loc main_arg1))) :=
  (W10_of_ne m ρ c main_v7 (by decide)).trans (at9_v7 m ρ c)

theorem at10_v8 : W10 m ρ c (Proc.devRef .tc main_v8) = (Cert.ReferenceIdeal.Spec.col (m ((c : Thread nD τ).loc main_arg1))) :=
  (W10_of_ne m ρ c main_v8 (by decide)).trans (at9_v8 m ρ c)

theorem at10_v33 : W10 m ρ c (Proc.devRef .tc main_v33) = (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1)))) :=
  (W10_of_ne m ρ c main_v33 (by decide)).trans (at9_v33 m ρ c)

theorem at10_arg2 : W10 m ρ c (Proc.devRef .tc main_arg2) = (m ((c : Thread nD τ).loc main_arg2)) :=
  (W10_of_ne m ρ c main_arg2 (by decide)).trans (at9_arg2 m ρ c)

theorem at10_arg8 : W10 m ρ c (Proc.devRef .tc main_arg8) = (m ((c : Thread nD τ).loc main_arg8)) :=
  (W10_of_ne m ρ c main_arg8 (by decide)).trans (at9_arg8 m ρ c)

theorem at11_arg2 : W11 m ρ c (Proc.devRef .tc main_arg2) = (m ((c : Thread nD τ).loc main_arg2)) :=
  (HostSteps.ops5_arg2 (W10 m ρ c)).trans (at10_arg2 m ρ c)

theorem at12_arg2 : W12 m ρ c (Proc.devRef .tc main_arg2) = (m ((c : Thread nD τ).loc main_arg2)) :=
  (W12_of_ne m ρ c main_arg2 (by decide)).trans (at11_arg2 m ρ c)

/-! ## The layers -/

theorem in0_0 : V3 m ρ c (Pipeline.arrRef spec0 0) = (m ((c : Thread nD τ).loc main_arg0)) := at3_arg0 m ρ c
theorem in0_1 : V3 m ρ c (Pipeline.arrRef spec0 1) = (m ((c : Thread nD τ).loc main_arg3)) := at3_arg3 m ρ c

theorem at4_v34 : W4 m ρ c (Proc.devRef .tc main_v34) = (Cert.ReferenceIdeal.Spec.dot (m ((c : Thread nD τ).loc main_arg0)) (m ((c : Thread nD τ).loc main_arg3))) := by
  refine (W4_arr m ρ c 2).trans ((MatmulRegion.region0 (V3 m ρ) c).trans ?_)
  rw [in0_0, in0_1]
  rfl

theorem at5_v47 : W5 m ρ c (Proc.devRef .tc main_v47) = (Cert.ReferenceIdeal.Spec.agg (Cert.ReferenceIdeal.Spec.dot (m ((c : Thread nD τ).loc main_arg0)) (m ((c : Thread nD τ).loc main_arg3))) (Cert.ReferenceIdeal.Spec.row (m ((c : Thread nD τ).loc main_arg1))) (Cert.ReferenceIdeal.Spec.col (m ((c : Thread nD τ).loc main_arg1))) (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) :=
  (HostSteps.ops1_agg (W4 m ρ c)).trans (by rw [at4_v34, at4_v7, at4_v8, at4_v33])

theorem at5_v48 : W5 m ρ c (Proc.devRef .tc main_v48) = (HostSteps.biasRow (m ((c : Thread nD τ).loc main_arg4))) :=
  (HostSteps.ops1_bias (W4 m ρ c)).trans (by rw [at4_arg4])

theorem in1_0 : V5 m ρ c (Pipeline.arrRef spec1 0) = (Cert.ReferenceIdeal.Spec.agg (Cert.ReferenceIdeal.Spec.dot (m ((c : Thread nD τ).loc main_arg0)) (m ((c : Thread nD τ).loc main_arg3))) (Cert.ReferenceIdeal.Spec.row (m ((c : Thread nD τ).loc main_arg1))) (Cert.ReferenceIdeal.Spec.col (m ((c : Thread nD τ).loc main_arg1))) (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) := at5_v47 m ρ c
theorem in1_1 : V5 m ρ c (Pipeline.arrRef spec1 1) = (HostSteps.biasRow (m ((c : Thread nD τ).loc main_arg4))) := at5_v48 m ρ c

theorem at6_v49 : W6 m ρ c (Proc.devRef .tc main_v49) = (Cert.ReferenceIdeal.Spec.relu (Cert.ReferenceIdeal.Spec.layer (m ((c : Thread nD τ).loc main_arg0)) (m ((c : Thread nD τ).loc main_arg3)) (m ((c : Thread nD τ).loc main_arg4)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) := by
  refine (W6_arr m ρ c 2).trans ((BiasRegion.region1 (V5 m ρ) c).trans ?_)
  rw [in1_0, in1_1, biasRow_eq]
  rfl

theorem in2_0 : V6 m ρ c (Pipeline.arrRef spec2 0) = (Cert.ReferenceIdeal.Spec.relu (Cert.ReferenceIdeal.Spec.layer (m ((c : Thread nD τ).loc main_arg0)) (m ((c : Thread nD τ).loc main_arg3)) (m ((c : Thread nD τ).loc main_arg4)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) := at6_v49 m ρ c
theorem in2_1 : V6 m ρ c (Pipeline.arrRef spec2 1) = (m ((c : Thread nD τ).loc main_arg5)) := at6_arg5 m ρ c

theorem at7_v50 : W7 m ρ c (Proc.devRef .tc main_v50) = (Cert.ReferenceIdeal.Spec.dot (Cert.ReferenceIdeal.Spec.relu (Cert.ReferenceIdeal.Spec.layer (m ((c : Thread nD τ).loc main_arg0)) (m ((c : Thread nD τ).loc main_arg3)) (m ((c : Thread nD τ).loc main_arg4)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg5))) := by
  refine (W7_arr m ρ c 2).trans ((MatmulRegion.region2 (V6 m ρ) c).trans ?_)
  rw [in2_0, in2_1]
  rfl

theorem at8_v63 : W8 m ρ c (Proc.devRef .tc main_v63) = (Cert.ReferenceIdeal.Spec.agg (Cert.ReferenceIdeal.Spec.dot (Cert.ReferenceIdeal.Spec.relu (Cert.ReferenceIdeal.Spec.layer (m ((c : Thread nD τ).loc main_arg0)) (m ((c : Thread nD τ).loc main_arg3)) (m ((c : Thread nD τ).loc main_arg4)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg5))) (Cert.ReferenceIdeal.Spec.row (m ((c : Thread nD τ).loc main_arg1))) (Cert.ReferenceIdeal.Spec.col (m ((c : Thread nD τ).loc main_arg1))) (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) :=
  (HostSteps.ops3_agg (W7 m ρ c)).trans (by rw [at7_v50, at7_v7, at7_v8, at7_v33])

theorem at8_v64 : W8 m ρ c (Proc.devRef .tc main_v64) = (HostSteps.biasRow (m ((c : Thread nD τ).loc main_arg6))) :=
  (HostSteps.ops3_bias (W7 m ρ c)).trans (by rw [at7_arg6])

theorem in3_0 : V8 m ρ c (Pipeline.arrRef spec3 0) = (Cert.ReferenceIdeal.Spec.agg (Cert.ReferenceIdeal.Spec.dot (Cert.ReferenceIdeal.Spec.relu (Cert.ReferenceIdeal.Spec.layer (m ((c : Thread nD τ).loc main_arg0)) (m ((c : Thread nD τ).loc main_arg3)) (m ((c : Thread nD τ).loc main_arg4)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg5))) (Cert.ReferenceIdeal.Spec.row (m ((c : Thread nD τ).loc main_arg1))) (Cert.ReferenceIdeal.Spec.col (m ((c : Thread nD τ).loc main_arg1))) (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) := at8_v63 m ρ c
theorem in3_1 : V8 m ρ c (Pipeline.arrRef spec3 1) = (HostSteps.biasRow (m ((c : Thread nD τ).loc main_arg6))) := at8_v64 m ρ c

theorem at9_v65 : W9 m ρ c (Proc.devRef .tc main_v65) = (Cert.ReferenceIdeal.Spec.relu (Cert.ReferenceIdeal.Spec.layer (Cert.ReferenceIdeal.Spec.relu (Cert.ReferenceIdeal.Spec.layer (m ((c : Thread nD τ).loc main_arg0)) (m ((c : Thread nD τ).loc main_arg3)) (m ((c : Thread nD τ).loc main_arg4)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg5)) (m ((c : Thread nD τ).loc main_arg6)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) := by
  refine (W9_arr m ρ c 2).trans ((BiasRegion.region3 (V8 m ρ) c).trans ?_)
  rw [in3_0, in3_1, biasRow_eq]
  rfl

theorem in4_0 : V9 m ρ c (Pipeline.arrRef spec4 0) = (Cert.ReferenceIdeal.Spec.relu (Cert.ReferenceIdeal.Spec.layer (Cert.ReferenceIdeal.Spec.relu (Cert.ReferenceIdeal.Spec.layer (m ((c : Thread nD τ).loc main_arg0)) (m ((c : Thread nD τ).loc main_arg3)) (m ((c : Thread nD τ).loc main_arg4)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg5)) (m ((c : Thread nD τ).loc main_arg6)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) := at9_v65 m ρ c
theorem in4_1 : V9 m ρ c (Pipeline.arrRef spec4 1) = (m ((c : Thread nD τ).loc main_arg7)) := at9_arg7 m ρ c

theorem at10_v66 : W10 m ρ c (Proc.devRef .tc main_v66) = (Cert.ReferenceIdeal.Spec.dot (Cert.ReferenceIdeal.Spec.relu (Cert.ReferenceIdeal.Spec.layer (Cert.ReferenceIdeal.Spec.relu (Cert.ReferenceIdeal.Spec.layer (m ((c : Thread nD τ).loc main_arg0)) (m ((c : Thread nD τ).loc main_arg3)) (m ((c : Thread nD τ).loc main_arg4)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg5)) (m ((c : Thread nD τ).loc main_arg6)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg7))) := by
  refine (W10_arr m ρ c 2).trans ((MatmulRegion.region4 (V9 m ρ) c).trans ?_)
  rw [in4_0, in4_1]
  rfl

theorem at11_v79 : W11 m ρ c (Proc.devRef .tc main_v79) = (Cert.ReferenceIdeal.Spec.agg (Cert.ReferenceIdeal.Spec.dot (Cert.ReferenceIdeal.Spec.relu (Cert.ReferenceIdeal.Spec.layer (Cert.ReferenceIdeal.Spec.relu (Cert.ReferenceIdeal.Spec.layer (m ((c : Thread nD τ).loc main_arg0)) (m ((c : Thread nD τ).loc main_arg3)) (m ((c : Thread nD τ).loc main_arg4)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg5)) (m ((c : Thread nD τ).loc main_arg6)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg7))) (Cert.ReferenceIdeal.Spec.row (m ((c : Thread nD τ).loc main_arg1))) (Cert.ReferenceIdeal.Spec.col (m ((c : Thread nD τ).loc main_arg1))) (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) :=
  (HostSteps.ops5_agg (W10 m ρ c)).trans (by rw [at10_v66, at10_v7, at10_v8, at10_v33])

theorem at11_v80 : W11 m ρ c (Proc.devRef .tc main_v80) = (HostSteps.biasRow (m ((c : Thread nD τ).loc main_arg8))) :=
  (HostSteps.ops5_bias (W10 m ρ c)).trans (by rw [at10_arg8])

theorem in5_0 : V11 m ρ c (Pipeline.arrRef spec5 0) = (Cert.ReferenceIdeal.Spec.agg (Cert.ReferenceIdeal.Spec.dot (Cert.ReferenceIdeal.Spec.relu (Cert.ReferenceIdeal.Spec.layer (Cert.ReferenceIdeal.Spec.relu (Cert.ReferenceIdeal.Spec.layer (m ((c : Thread nD τ).loc main_arg0)) (m ((c : Thread nD τ).loc main_arg3)) (m ((c : Thread nD τ).loc main_arg4)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg5)) (m ((c : Thread nD τ).loc main_arg6)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg7))) (Cert.ReferenceIdeal.Spec.row (m ((c : Thread nD τ).loc main_arg1))) (Cert.ReferenceIdeal.Spec.col (m ((c : Thread nD τ).loc main_arg1))) (Cert.ReferenceIdeal.Spec.norm (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) := at11_v79 m ρ c
theorem in5_1 : V11 m ρ c (Pipeline.arrRef spec5 1) = (HostSteps.biasRow (m ((c : Thread nD τ).loc main_arg8))) := at11_v80 m ρ c

theorem at12_v81 : W12 m ρ c (Proc.devRef .tc main_v81) = (Cert.ReferenceIdeal.Spec.layer (Cert.ReferenceIdeal.Spec.relu (Cert.ReferenceIdeal.Spec.layer (Cert.ReferenceIdeal.Spec.relu (Cert.ReferenceIdeal.Spec.layer (m ((c : Thread nD τ).loc main_arg0)) (m ((c : Thread nD τ).loc main_arg3)) (m ((c : Thread nD τ).loc main_arg4)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg5)) (m ((c : Thread nD τ).loc main_arg6)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1))))) (m ((c : Thread nD τ).loc main_arg7)) (m ((c : Thread nD τ).loc main_arg8)) (Cert.ReferenceIdeal.Spec.row (m ((c : Thread nD τ).loc main_arg1))) (Cert.ReferenceIdeal.Spec.col (m ((c : Thread nD τ).loc main_arg1))) (Cert.ReferenceIdeal.Spec.ew (m ((c : Thread nD τ).loc main_arg1)))) := by
  refine (W12_arr m ρ c 2).trans ((BiasRegion.region5 (V11 m ρ) c).trans ?_)
  rw [in5_0, in5_1, biasRow_eq]
  rfl

/-! ## The result -/

/-- The result buffer at the end of the fold is the pipeline of the launch contents of the nine arguments. -/
theorem result : W13 m ρ c (Proc.devRef .tc main_v84) = Cert.ReferenceIdeal.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (HostSteps.ops6_pool (W12 m ρ c)).trans (by rw [at12_v81, at12_arg2]; rfl)

end Cert.KernelIdeal.Net

end
-- ==== Proof.RefValue.lean ====
/-
  What the reference program computes, as one function of its nine arguments.

  The program is a straight line of host operations; after it every buffer holds the fold of the operations' results
  over the launch contents. The line is cut after the twelve operations that build the source and target vectors and
  the edge weights from the edge list; the remaining operations — three layers, each recomputing the degrees and the
  edge normalisation from those three vectors, and the final sum per graph — are read from ARBITRARY incoming
  contents, so the three vectors stay atoms there. Composing the two pieces gives the result as `Spec.net` of the
  launch contents of the arguments.
-/
import proofs.«138898_j15547781611787_1_alg».proof.Proof.RefRunP
import proofs.«138898_j15547781611787_1_alg».proof.Proof.RefSpec
import proofs.«138898_j15547781611787_1_alg».proof.Proof.LibAfterAppend

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first twelve operations: the edge list's two rows, the self loops appended, the edge weights. -/
abbrev head : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_v1 main_v3 main_v4 (cmpi .ne : (⟨S1600000, .i32⟩ : BufTy).Contents (Elt F) → (⟨S1600000, .i32⟩ : BufTy).Contents (Elt F) → (⟨S1600000, .i1⟩ : BufTy).Contents (Elt F)),
    unary main_v4 main_v5 (uitofp .f32 : (⟨S1600000, .i1⟩ : BufTy).Contents (Elt F) → (⟨S1600000, .f32⟩ : BufTy).Contents (Elt F)),
    nullary main_v6 (iotaInDim S100000 32 0),
    binary main_v1 main_v6 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v6 main_v8 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v9 (broadcastInDim S100000 ![] bcast_S_S100000 : (⟨S_, .f32⟩ : BufTy).Contents (Elt F) → (⟨S100000, .f32⟩ : BufTy).Contents (Elt F)),
    binary main_v5 main_v9 main_v10 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) ]

/-- The remaining operations: the three layers and the sum per graph. -/
abbrev rest : List (HloOp τ sig (Elt F)) :=
  [ binary main_arg0 main_arg3 main_v11 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_0 (constant S_ .f32 0x00000000#32),
    unary main_cst_0 main_v12 (broadcastInDim S100000 ![] bcast_S_S100000 : (⟨S_, .f32⟩ : BufTy).Contents (Elt F) → (⟨S100000, .f32⟩ : BufTy).Contents (Elt F)),
    unary main_v7 main_v13 (broadcastInDim S1700000x1 ![0] bcast_S1700000_S1700000x1_0 : (⟨S1700000, .i32⟩ : BufTy).Contents (Elt F) → (⟨S1700000x1, .i32⟩ : BufTy).Contents (Elt F)),
    ternary main_v12 main_v13 main_v10 main_v14 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v15 (broadcastInDim S100000 ![] bcast_S_S100000 : (⟨S_, .f32⟩ : BufTy).Contents (Elt F) → (⟨S100000, .f32⟩ : BufTy).Contents (Elt F)),
    binary main_v14 main_v15 main_v16 (cmpf .ogt : (⟨S100000, .f32⟩ : BufTy).Contents (Elt F) → (⟨S100000, .f32⟩ : BufTy).Contents (Elt F) → (⟨S100000, .i1⟩ : BufTy).Contents (Elt F)),
    unary main_v14 main_v17 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v16) (TRef.of (T := ⟨S100000, .f32⟩) main_v17) (TRef.of (T := ⟨S100000, .f32⟩) main_call0_v1) (TRef.of (T := ⟨S100000, .f32⟩) main_v18) select,
    nullary main_c (constantI S_ 32 0#32),
    unary main_c main_v19 (broadcastInDim S1700000 ![] bcast_S_S1700000 : (⟨S_, .i32⟩ : BufTy).Contents (Elt F) → (⟨S1700000, .i32⟩ : BufTy).Contents (Elt F)),
    binary main_v7 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v21 (broadcastInDim S1700000 ![] bcast_S_S1700000 : (⟨S_, .i32⟩ : BufTy).Contents (Elt F) → (⟨S1700000, .i32⟩ : BufTy).Contents (Elt F)),
    binary main_v7 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v7 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v18 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v25 main_v10 main_v26 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v27 (broadcastInDim S1700000 ![] bcast_S_S1700000 : (⟨S_, .i32⟩ : BufTy).Contents (Elt F) → (⟨S1700000, .i32⟩ : BufTy).Contents (Elt F)),
    binary main_v8 main_v27 main_v28 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v29 (broadcastInDim S1700000 ![] bcast_S_S1700000 : (⟨S_, .i32⟩ : BufTy).Contents (Elt F) → (⟨S1700000, .i32⟩ : BufTy).Contents (Elt F)),
    binary main_v8 main_v29 main_v30 (addi : (⟨S1700000, .i32⟩ : BufTy).Contents (Elt F) → (⟨S1700000, .i32⟩ : BufTy).Contents (Elt F) → (⟨S1700000, .i32⟩ : BufTy).Contents (Elt F)),
    ternary main_v28 main_v30 main_v8 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v31 main_v32 (broadcastInDim S1700000x1 ![0] bcast_S1700000_S1700000x1_0 : (⟨S1700000, .i32⟩ : BufTy).Contents (Elt F) → (⟨S1700000x1, .i32⟩ : BufTy).Contents (Elt F)),
    binary main_v18 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v26 main_v33 main_v34 (mulf : (⟨S1700000, .f32⟩ : BufTy).Contents (Elt F) → (⟨S1700000, .f32⟩ : BufTy).Contents (Elt F) → (⟨S1700000, .f32⟩ : BufTy).Contents (Elt F)),
    unary main_v34 main_v35 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v36 (broadcastInDim S1700000 ![] bcast_S_S1700000 : (⟨S_, .i32⟩ : BufTy).Contents (Elt F) → (⟨S1700000, .i32⟩ : BufTy).Contents (Elt F)),
    binary main_v8 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v38 (broadcastInDim S1700000 ![] bcast_S_S1700000 : (⟨S_, .i32⟩ : BufTy).Contents (Elt F) → (⟨S1700000, .i32⟩ : BufTy).Contents (Elt F)),
    binary main_v8 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v8 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v11 main_v41 main_v42 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v35 main_v43 (broadcastInDim S1700000x64 ![0, 1] bcast_S1700000x1_S1700000x64_0_1 : (⟨S1700000x1, .f32⟩ : BufTy).Contents (Elt F) → (⟨S1700000x64, .f32⟩ : BufTy).Contents (Elt F)),
    binary main_v43 main_v42 main_v44 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v45 (broadcastInDim S100000x64 ![] bcast_S_S100000x64 : (⟨S_, .f32⟩ : BufTy).Contents (Elt F) → (⟨S100000x64, .f32⟩ : BufTy).Contents (Elt F)),
    unary main_v7 main_v46 (broadcastInDim S1700000x1 ![0] bcast_S1700000_S1700000x1_0 : (⟨S1700000, .i32⟩ : BufTy).Contents (Elt F) → (⟨S1700000x1, .i32⟩ : BufTy).Contents (Elt F)),
    ternary main_v45 main_v46 main_v44 main_v47 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v47 main_v49 main_v50 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v50) (TRef.of (T := ⟨S100000x64, .f32⟩) main_call1_v0) (TRef.of (T := ⟨S100000x64, .f32⟩) main_v51) maximumf,
    binary main_v51 main_arg5 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_9 (constant S_ .f32 0x00000000#32),
    unary main_cst_9 main_v53 (broadcastInDim S100000 ![] bcast_S_S100000 : (⟨S_, .f32⟩ : BufTy).Contents (Elt F) → (⟨S100000, .f32⟩ : BufTy).Contents (Elt F)),
    unary main_v7 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v10 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_12 (constantI S_ 32 0#32),
    unary main_c_12 main_v60 (broadcastInDim S1700000 ![] bcast_S_S1700000 : (⟨S_, .i32⟩ : BufTy).Contents (Elt F) → (⟨S1700000, .i32⟩ : BufTy).Contents (Elt F)),
    binary main_v7 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v62 (broadcastInDim S1700000 ![] bcast_S_S1700000 : (⟨S_, .i32⟩ : BufTy).Contents (Elt F) → (⟨S1700000, .i32⟩ : BufTy).Contents (Elt F)),
    binary main_v7 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v7 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v10 main_v67 (mulf : (⟨S1700000, .f32⟩ : BufTy).Contents (Elt F) → (⟨S1700000, .f32⟩ : BufTy).Contents (Elt F) → (⟨S1700000, .f32⟩ : BufTy).Contents (Elt F)),
    nullary main_c_14 (constantI S_ 32 0#32),
    unary main_c_14 main_v68 (broadcastInDim S1700000 ![] bcast_S_S1700000 : (⟨S_, .i32⟩ : BufTy).Contents (Elt F) → (⟨S1700000, .i32⟩ : BufTy).Contents (Elt F)),
    binary main_v8 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v70 (broadcastInDim S1700000 ![] bcast_S_S1700000 : (⟨S_, .i32⟩ : BufTy).Contents (Elt F) → (⟨S1700000, .i32⟩ : BufTy).Contents (Elt F)),
    binary main_v8 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v8 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v59 main_v73 main_v74 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v67 main_v74 main_v75 (mulf : (⟨S1700000, .f32⟩ : BufTy).Contents (Elt F) → (⟨S1700000, .f32⟩ : BufTy).Contents (Elt F) → (⟨S1700000, .f32⟩ : BufTy).Contents (Elt F)),
    unary main_v75 main_v76 (broadcastInDim S1700000x1 ![0] bcast_S1700000_S1700000x1_0 : (⟨S1700000, .f32⟩ : BufTy).Contents (Elt F) → (⟨S1700000x1, .f32⟩ : BufTy).Contents (Elt F)),
    nullary main_c_16 (constantI S_ 32 0#32),
    unary main_c_16 main_v77 (broadcastInDim S1700000 ![] bcast_S_S1700000 : (⟨S_, .i32⟩ : BufTy).Contents (Elt F) → (⟨S1700000, .i32⟩ : BufTy).Contents (Elt F)),
    binary main_v8 main_v77 main_v78 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v79 (broadcastInDim S1700000 ![] bcast_S_S1700000 : (⟨S_, .i32⟩ : BufTy).Contents (Elt F) → (⟨S1700000, .i32⟩ : BufTy).Contents (Elt F)),
    binary main_v8 main_v79 main_v80 (addi : (⟨S1700000, .i32⟩ : BufTy).Contents (Elt F) → (⟨S1700000, .i32⟩ : BufTy).Contents (Elt F) → (⟨S1700000, .i32⟩ : BufTy).Contents (Elt F)),
    ternary main_v78 main_v80 main_v8 main_v81 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v81 main_v82 (broadcastInDim S1700000x1 ![0] bcast_S1700000_S1700000x1_0 : (⟨S1700000, .i32⟩ : BufTy).Contents (Elt F) → (⟨S1700000x1, .i32⟩ : BufTy).Contents (Elt F)),
    binary main_v52 main_v82 main_v83 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v76 main_v84 (broadcastInDim S1700000x64 ![0, 1] bcast_S1700000x1_S1700000x64_0_1 : (⟨S1700000x1, .f32⟩ : BufTy).Contents (Elt F) → (⟨S1700000x64, .f32⟩ : BufTy).Contents (Elt F)),
    binary main_v84 main_v83 main_v85 (mulf : (⟨S1700000x64, .f32⟩ : BufTy).Contents (Elt F) → (⟨S1700000x64, .f32⟩ : BufTy).Contents (Elt F) → (⟨S1700000x64, .f32⟩ : BufTy).Contents (Elt F)),
    nullary main_cst_18 (constant S_ .f32 0x00000000#32),
    unary main_cst_18 main_v86 (broadcastInDim S100000x64 ![] bcast_S_S100000x64 : (⟨S_, .f32⟩ : BufTy).Contents (Elt F) → (⟨S100000x64, .f32⟩ : BufTy).Contents (Elt F)),
    unary main_v7 main_v87 (broadcastInDim S1700000x1 ![0] bcast_S1700000_S1700000x1_0 : (⟨S1700000, .i32⟩ : BufTy).Contents (Elt F) → (⟨S1700000x1, .i32⟩ : BufTy).Contents (Elt F)),
    ternary main_v86 main_v87 main_v85 main_v88 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg6 main_v89 (broadcastInDim S1x64 ![1] bcast_S64_S1x64_1 : (⟨S64, .f32⟩ : BufTy).Contents (Elt F) → (⟨S1x64, .f32⟩ : BufTy).Contents (Elt F)),
    unary main_v89 main_v90 (broadcastInDim S100000x64 ![0, 1] bcast_S1x64_S100000x64_0_1 : (⟨S1x64, .f32⟩ : BufTy).Contents (Elt F) → (⟨S100000x64, .f32⟩ : BufTy).Contents (Elt F)),
    binary main_v88 main_v90 main_v91 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v91) (TRef.of (T := ⟨S100000x64, .f32⟩) main_call3_v0) (TRef.of (T := ⟨S100000x64, .f32⟩) main_v92) maximumf,
    binary main_v92 main_arg7 main_v93 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_19 (constant S_ .f32 0x00000000#32),
    unary main_cst_19 main_v94 (broadcastInDim S100000 ![] bcast_S_S100000 : (⟨S_, .f32⟩ : BufTy).Contents (Elt F) → (⟨S100000, .f32⟩ : BufTy).Contents (Elt F)),
    unary main_v7 main_v95 (broadcastInDim S1700000x1 ![0] bcast_S1700000_S1700000x1_0 : (⟨S1700000, .i32⟩ : BufTy).Contents (Elt F) → (⟨S1700000x1, .i32⟩ : BufTy).Contents (Elt F)),
    ternary main_v94 main_v95 main_v10 main_v96 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_20 (constant S_ .f32 0x00000000#32),
    unary main_cst_20 main_v97 (broadcastInDim S100000 ![] bcast_S_S100000 : (⟨S_, .f32⟩ : BufTy).Contents (Elt F) → (⟨S100000, .f32⟩ : BufTy).Contents (Elt F)),
    binary main_v96 main_v97 main_v98 (cmpf .ogt : (⟨S100000, .f32⟩ : BufTy).Contents (Elt F) → (⟨S100000, .f32⟩ : BufTy).Contents (Elt F) → (⟨S100000, .i1⟩ : BufTy).Contents (Elt F)),
    unary main_v96 main_v99 (Host.rsqrt : (⟨S100000, .f32⟩ : BufTy).Contents (Elt F) → (⟨S100000, .f32⟩ : BufTy).Contents (Elt F)),
    nullary main_cst_21 (constant S_ .f32 0x00000000#32),
    TRef.unary (TRef.of (T := ⟨S_, .f32⟩) main_cst_21) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v98) (TRef.of (T := ⟨S100000, .f32⟩) main_v99) (TRef.of (T := ⟨S100000, .f32⟩) main_call4_v1) (TRef.of (T := ⟨S100000, .f32⟩) main_v100) select,
    nullary main_c_22 (constantI S_ 32 0#32),
    unary main_c_22 main_v101 (broadcastInDim S1700000 ![] bcast_S_S1700000 : (⟨S_, .i32⟩ : BufTy).Contents (Elt F) → (⟨S1700000, .i32⟩ : BufTy).Contents (Elt F)),
    binary main_v7 main_v101 main_v102 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v103 (broadcastInDim S1700000 ![] bcast_S_S1700000 : (⟨S_, .i32⟩ : BufTy).Contents (Elt F) → (⟨S1700000, .i32⟩ : BufTy).Contents (Elt F)),
    binary main_v7 main_v103 main_v104 (addi : (⟨S1700000, .i32⟩ : BufTy).Contents (Elt F) → (⟨S1700000, .i32⟩ : BufTy).Contents (Elt F) → (⟨S1700000, .i32⟩ : BufTy).Contents (Elt F)),
    ternary main_v102 main_v104 main_v7 main_v105 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v105 main_v106 (broadcastInDim S1700000x1 ![0] bcast_S1700000_S1700000x1_0 : (⟨S1700000, .i32⟩ : BufTy).Contents (Elt F) → (⟨S1700000x1, .i32⟩ : BufTy).Contents (Elt F)),
    binary main_v100 main_v106 main_v107 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v107 main_v10 main_v108 (mulf : (⟨S1700000, .f32⟩ : BufTy).Contents (Elt F) → (⟨S1700000, .f32⟩ : BufTy).Contents (Elt F) → (⟨S1700000, .f32⟩ : BufTy).Contents (Elt F)),
    nullary main_c_24 (constantI S_ 32 0#32),
    unary main_c_24 main_v109 (broadcastInDim S1700000 ![] bcast_S_S1700000 : (⟨S_, .i32⟩ : BufTy).Contents (Elt F) → (⟨S1700000, .i32⟩ : BufTy).Contents (Elt F)),
    binary main_v8 main_v109 main_v110 (cmpi .slt : (⟨S1700000, .i32⟩ : BufTy).Contents (Elt F) → (⟨S1700000, .i32⟩ : BufTy).Contents (Elt F) → (⟨S1700000, .i1⟩ : BufTy).Contents (Elt F)),
    nullary main_c_25 (constantI S_ 32 100000#32),
    unary main_c_25 main_v111 (broadcastInDim S1700000 ![] bcast_S_S1700000 : (⟨S_, .i32⟩ : BufTy).Contents (Elt F) → (⟨S1700000, .i32⟩ : BufTy).Contents (Elt F)),
    binary main_v8 main_v111 main_v112 (addi : (⟨S1700000, .i32⟩ : BufTy).Contents (Elt F) → (⟨S1700000, .i32⟩ : BufTy).Contents (Elt F) → (⟨S1700000, .i32⟩ : BufTy).Contents (Elt F)),
    ternary main_v110 main_v112 main_v8 main_v113 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v113 main_v114 (broadcastInDim S1700000x1 ![0] bcast_S1700000_S1700000x1_0 : (⟨S1700000, .i32⟩ : BufTy).Contents (Elt F) → (⟨S1700000x1, .i32⟩ : BufTy).Contents (Elt F)),
    binary main_v100 main_v114 main_v115 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v108 main_v115 main_v116 (mulf : (⟨S1700000, .f32⟩ : BufTy).Contents (Elt F) → (⟨S1700000, .f32⟩ : BufTy).Contents (Elt F) → (⟨S1700000, .f32⟩ : BufTy).Contents (Elt F)),
    unary main_v116 main_v117 (broadcastInDim S1700000x1 ![0] bcast_S1700000_S1700000x1_0 : (⟨S1700000, .f32⟩ : BufTy).Contents (Elt F) → (⟨S1700000x1, .f32⟩ : BufTy).Contents (Elt F)),
    nullary main_c_26 (constantI S_ 32 0#32),
    unary main_c_26 main_v118 (broadcastInDim S1700000 ![] bcast_S_S1700000 : (⟨S_, .i32⟩ : BufTy).Contents (Elt F) → (⟨S1700000, .i32⟩ : BufTy).Contents (Elt F)),
    binary main_v8 main_v118 main_v119 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v120 (broadcastInDim S1700000 ![] bcast_S_S1700000 : (⟨S_, .i32⟩ : BufTy).Contents (Elt F) → (⟨S1700000, .i32⟩ : BufTy).Contents (Elt F)),
    binary main_v8 main_v120 main_v121 (addi : (⟨S1700000, .i32⟩ : BufTy).Contents (Elt F) → (⟨S1700000, .i32⟩ : BufTy).Contents (Elt F) → (⟨S1700000, .i32⟩ : BufTy).Contents (Elt F)),
    ternary main_v119 main_v121 main_v8 main_v122 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v122 main_v123 (broadcastInDim S1700000x1 ![0] bcast_S1700000_S1700000x1_0 : (⟨S1700000, .i32⟩ : BufTy).Contents (Elt F) → (⟨S1700000x1, .i32⟩ : BufTy).Contents (Elt F)),
    binary main_v93 main_v123 main_v124 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v117 main_v125 (broadcastInDim S1700000x64 ![0, 1] bcast_S1700000x1_S1700000x64_0_1 : (⟨S1700000x1, .f32⟩ : BufTy).Contents (Elt F) → (⟨S1700000x64, .f32⟩ : BufTy).Contents (Elt F)),
    binary main_v125 main_v124 main_v126 (mulf : (⟨S1700000x64, .f32⟩ : BufTy).Contents (Elt F) → (⟨S1700000x64, .f32⟩ : BufTy).Contents (Elt F) → (⟨S1700000x64, .f32⟩ : BufTy).Contents (Elt F)),
    nullary main_cst_28 (constant S_ .f32 0x00000000#32),
    unary main_cst_28 main_v127 (broadcastInDim S100000x64 ![] bcast_S_S100000x64 : (⟨S_, .f32⟩ : BufTy).Contents (Elt F) → (⟨S100000x64, .f32⟩ : BufTy).Contents (Elt F)),
    unary main_v7 main_v128 (broadcastInDim S1700000x1 ![0] bcast_S1700000_S1700000x1_0 : (⟨S1700000, .i32⟩ : BufTy).Contents (Elt F) → (⟨S1700000x1, .i32⟩ : BufTy).Contents (Elt F)),
    ternary main_v127 main_v128 main_v126 main_v129 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg8 main_v130 (broadcastInDim S1x64 ![1] bcast_S64_S1x64_1 : (⟨S64, .f32⟩ : BufTy).Contents (Elt F) → (⟨S1x64, .f32⟩ : BufTy).Contents (Elt F)),
    unary main_v130 main_v131 (broadcastInDim S100000x64 ![0, 1] bcast_S1x64_S100000x64_0_1 : (⟨S1x64, .f32⟩ : BufTy).Contents (Elt F) → (⟨S100000x64, .f32⟩ : BufTy).Contents (Elt F)),
    binary main_v129 main_v131 main_v132 (addf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x00000000#32),
    unary main_cst_29 main_v133 (broadcastInDim S512x64 ![] bcast_S_S512x64 : (⟨S_, .f32⟩ : BufTy).Contents (Elt F) → (⟨S512x64, .f32⟩ : BufTy).Contents (Elt F)),
    unary main_arg2 main_v134 (broadcastInDim S100000x1 ![0] bcast_S100000_S100000x1_0 : (⟨S100000, .i32⟩ : BufTy).Contents (Elt F) → (⟨S100000x1, .i32⟩ : BufTy).Contents (Elt F)),
    ternary main_v133 main_v134 main_v132 main_v135 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)) ]

set_option maxRecDepth 65536 in
/-- The program's line of operations is the two pieces, one after the other. -/
theorem ops_split : (RunP.ops : List (HloOp τ sig (Elt F))) = head ++ rest := rfl

/-! ## The first piece, from any incoming contents -/

theorem head_row (V : Valuation τ sig (Elt F)) :
    after head V (Proc.devRef .tc main_v7) = Spec.row (V (Proc.devRef .tc main_arg1)) := by
  after_results
  rfl

theorem head_col (V : Valuation τ sig (Elt F)) :
    after head V (Proc.devRef .tc main_v8) = Spec.col (V (Proc.devRef .tc main_arg1)) := by
  after_results
  rfl

theorem head_ew (V : Valuation τ sig (Elt F)) :
    after head V (Proc.devRef .tc main_v10) = Spec.ew (V (Proc.devRef .tc main_arg1)) := by
  after_results
  rfl

theorem head_arg0 (V : Valuation τ sig (Elt F)) :
    after head V (Proc.devRef .tc main_arg0) = V (Proc.devRef .tc main_arg0) := by
  after_results

theorem head_arg2 (V : Valuation τ sig (Elt F)) :
    after head V (Proc.devRef .tc main_arg2) = V (Proc.devRef .tc main_arg2) := by
  after_results

theorem head_arg3 (V : Valuation τ sig (Elt F)) :
    after head V (Proc.devRef .tc main_arg3) = V (Proc.devRef .tc main_arg3) := by
  after_results

theorem head_arg4 (V : Valuation τ sig (Elt F)) :
    after head V (Proc.devRef .tc main_arg4) = V (Proc.devRef .tc main_arg4) := by
  after_results

theorem head_arg5 (V : Valuation τ sig (Elt F)) :
    after head V (Proc.devRef .tc main_arg5) = V (Proc.devRef .tc main_arg5) := by
  after_results

theorem head_arg6 (V : Valuation τ sig (Elt F)) :
    after head V (Proc.devRef .tc main_arg6) = V (Proc.devRef .tc main_arg6) := by
  after_results

theorem head_arg7 (V : Valuation τ sig (Elt F)) :
    after head V (Proc.devRef .tc main_arg7) = V (Proc.devRef .tc main_arg7) := by
  after_results

theorem head_arg8 (V : Valuation τ sig (Elt F)) :
    after head V (Proc.devRef .tc main_arg8) = V (Proc.devRef .tc main_arg8) := by
  after_results

/-! ## The second piece, from any incoming contents -/

set_option maxHeartbeats 40000000 in
/-- The layers and the final sum, over the three vectors as they come in. -/
theorem rest_value (V : Valuation τ sig (Elt F)) :
    after rest V (Proc.devRef .tc main_v135)
      = Spec.netOf (V (Proc.devRef .tc main_arg0)) (V (Proc.devRef .tc main_v7)) (V (Proc.devRef .tc main_v8)) (V (Proc.devRef .tc main_v10)) (V (Proc.devRef .tc main_arg2))
          (V (Proc.devRef .tc main_arg3)) (V (Proc.devRef .tc main_arg4)) (V (Proc.devRef .tc main_arg5)) (V (Proc.devRef .tc main_arg6)) (V (Proc.devRef .tc main_arg7)) (V (Proc.devRef .tc main_arg8)) := by
  after_results_simp
  rfl

/-! ## The result -/

/-- The program's result buffer, after the whole line from the launch contents, is the pipeline of the arguments. -/
theorem value (m : (ℓ : Loc nD τ sig) → Buf (Elt F) ℓ) (c : Dev nD) :
    after RunP.ops (launchContents m c) (Proc.devRef .tc main_v135)
      = Spec.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  rw [ops_split, Cert.LibAfterAppend.after_append, rest_value, head_row, head_col, head_ew,
    head_arg0, head_arg2, head_arg3, head_arg4, head_arg5, head_arg6, head_arg7, head_arg8]
  rfl

/-! ## The arguments -/

set_option maxHeartbeats 4000000 in
/-- No operation writes an argument: it ends as launched. -/
theorem kept_arg0 (m : (ℓ : Loc nD τ sig) → Buf (Elt F) ℓ) (c : Dev nD) :
    after RunP.ops (launchContents m c) (Proc.devRef .tc main_arg0) = m ((c.tc : Thread nD τ).loc main_arg0) := by
  after_results_simp <;> rfl

set_option maxHeartbeats 4000000 in
/-- No operation writes an argument: it ends as launched. -/
theorem kept_arg1 (m : (ℓ : Loc nD τ sig) → Buf (Elt F) ℓ) (c : Dev nD) :
    after RunP.ops (launchContents m c) (Proc.devRef .tc main_arg1) = m ((c.tc : Thread nD τ).loc main_arg1) := by
  after_results_simp <;> rfl

set_option maxHeartbeats 4000000 in
/-- No operation writes an argument: it ends as launched. -/
theorem kept_arg2 (m : (ℓ : Loc nD τ sig) → Buf (Elt F) ℓ) (c : Dev nD) :
    after RunP.ops (launchContents m c) (Proc.devRef .tc main_arg2) = m ((c.tc : Thread nD τ).loc main_arg2) := by
  after_results_simp <;> rfl

set_option maxHeartbeats 4000000 in
/-- No operation writes an argument: it ends as launched. -/
theorem kept_arg3 (m : (ℓ : Loc nD τ sig) → Buf (Elt F) ℓ) (c : Dev nD) :
    after RunP.ops (launchContents m c) (Proc.devRef .tc main_arg3) = m ((c.tc : Thread nD τ).loc main_arg3) := by
  after_results_simp <;> rfl

set_option maxHeartbeats 4000000 in
/-- No operation writes an argument: it ends as launched. -/
theorem kept_arg4 (m : (ℓ : Loc nD τ sig) → Buf (Elt F) ℓ) (c : Dev nD) :
    after RunP.ops (launchContents m c) (Proc.devRef .tc main_arg4) = m ((c.tc : Thread nD τ).loc main_arg4) := by
  after_results_simp <;> rfl

set_option maxHeartbeats 4000000 in
/-- No operation writes an argument: it ends as launched. -/
theorem kept_arg5 (m : (ℓ : Loc nD τ sig) → Buf (Elt F) ℓ) (c : Dev nD) :
    after RunP.ops (launchContents m c) (Proc.devRef .tc main_arg5) = m ((c.tc : Thread nD τ).loc main_arg5) := by
  after_results_simp <;> rfl

set_option maxHeartbeats 4000000 in
/-- No operation writes an argument: it ends as launched. -/
theorem kept_arg6 (m : (ℓ : Loc nD τ sig) → Buf (Elt F) ℓ) (c : Dev nD) :
    after RunP.ops (launchContents m c) (Proc.devRef .tc main_arg6) = m ((c.tc : Thread nD τ).loc main_arg6) := by
  after_results_simp <;> rfl

set_option maxHeartbeats 4000000 in
/-- No operation writes an argument: it ends as launched. -/
theorem kept_arg7 (m : (ℓ : Loc nD τ sig) → Buf (Elt F) ℓ) (c : Dev nD) :
    after RunP.ops (launchContents m c) (Proc.devRef .tc main_arg7) = m ((c.tc : Thread nD τ).loc main_arg7) := by
  after_results_simp <;> rfl

set_option maxHeartbeats 4000000 in
/-- No operation writes an argument: it ends as launched. -/
theorem kept_arg8 (m : (ℓ : Loc nD τ sig) → Buf (Elt F) ℓ) (c : Dev nD) :
    after RunP.ops (launchContents m c) (Proc.devRef .tc main_arg8) = m ((c.tc : Thread nD τ).loc main_arg8) := by
  after_results_simp <;> rfl

end Cert.ReferenceIdeal.RefValue

end
-- ==== Proof.lean ====
/-
  The certificate of a three-layer graph-convolution network with a sum per graph: the kernel program (six kernel
  regions — a projection and a bias step per layer — among host operations) against the reference (host operations only).

  Both programs build, from the 2 × E edge list, the source and target vectors with a self loop per node appended, the
  edge weights, the weighted degrees, their inverse square roots and the symmetric normalisation of every edge; a layer
  multiplies the node features by a 64 × 64 matrix, lets every edge carry its target's row, scaled by the edge's
  normalisation, to its source, sums what arrives and adds a bias; the positive part is taken after the first two
  layers, and the last layer's rows are summed per graph. The two programs differ in three ways only. The kernel
  program computes the normalisation once and the reference once per layer: the same function of the edge list. The
  kernel's projection rounds its operands to a narrower float format before a blocked matrix product into a zero
  accumulator: over the extended reals a change of format is the identity and each row block of the product is the
  block of the whole product. The kernel adds the bias, reshaped to a 1 × 64 row, block by block, where the reference
  broadcasts it over the whole array. So the two results are the same function of the nine arguments, with no use of
  the arguments' finiteness: no step moves a factor across a sum or cancels.

  The three frames are the generated ones (the reference's from its run); the kernel program was printed without any
  rewrite, so the idealization has nothing to preserve.
-/
import proofs.«138898_j15547781611787_1_alg».proof.Defs
import proofs.«138898_j15547781611787_1_alg».proof.Proof.Gen.Kernel
import proofs.«138898_j15547781611787_1_alg».proof.Proof.Gen.Kernel.Frame
import proofs.«138898_j15547781611787_1_alg».proof.Proof.Gen.KernelIdeal
import proofs.«138898_j15547781611787_1_alg».proof.Proof.Gen.KernelIdeal.Frame
import proofs.«138898_j15547781611787_1_alg».proof.Proof.Gen.ReferenceIdeal
import proofs.«138898_j15547781611787_1_alg».proof.Proof.Gen.Pre_finite_inputs
import proofs.«138898_j15547781611787_1_alg».proof.Proof.KernelRun
import proofs.«138898_j15547781611787_1_alg».proof.Proof.KernelValue
import proofs.«138898_j15547781611787_1_alg».proof.Proof.RefRunP
import proofs.«138898_j15547781611787_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, read at the argument buffers. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.RefValue.kept_arg0 m c),
     (h c Cert.ReferenceIdeal.main_arg1).trans (Cert.ReferenceIdeal.RefValue.kept_arg1 m c),
     (h c Cert.ReferenceIdeal.main_arg2).trans (Cert.ReferenceIdeal.RefValue.kept_arg2 m c),
     (h c Cert.ReferenceIdeal.main_arg3).trans (Cert.ReferenceIdeal.RefValue.kept_arg3 m c),
     (h c Cert.ReferenceIdeal.main_arg4).trans (Cert.ReferenceIdeal.RefValue.kept_arg4 m c),
     (h c Cert.ReferenceIdeal.main_arg5).trans (Cert.ReferenceIdeal.RefValue.kept_arg5 m c),
     (h c Cert.ReferenceIdeal.main_arg6).trans (Cert.ReferenceIdeal.RefValue.kept_arg6 m c),
     (h c Cert.ReferenceIdeal.main_arg7).trans (Cert.ReferenceIdeal.RefValue.kept_arg7 m c),
     (h c Cert.ReferenceIdeal.main_arg8).trans (Cert.ReferenceIdeal.RefValue.kept_arg8 m c)⟩)
    (Cert.ReferenceIdeal.RunP.run_after (F := Ideal) m ρ)

/-- The ideal pass rewrote no operation of the kernel program. -/
theorem preserves : Cert.preserves_Kernel_KernelIdeal := trivial

/-- Over the extended reals both programs end with the pipeline of the (agreeing) arguments in their result buffers. -/
theorem algebraic : Cert.algebraic_KernelIdeal_ReferenceIdeal := by
  intro m ρ m' ρ' _ hagree
  refine ⟨fun c => Cert.KernelIdeal.Gen.W13 m ρ c (Proc.devRef .tc Cert.KernelIdeal.main_v84),
    Cert.KernelIdeal.Named.run_named m ρ, ?_⟩
  refine (θ_run Cert.ReferenceIdeal.defs _ _).mono (fun _ h c => ?_) (Cert.ReferenceIdeal.RunP.run_after (F := Ideal) m' ρ')
  obtain ⟨e0, e1, e2, e3, e4, e5, e6, e7, e8⟩ := hagree c
  refine ⟨(h c Cert.ReferenceIdeal.main_v135).trans ?_,
     (h c Cert.ReferenceIdeal.main_arg0).trans (Cert.ReferenceIdeal.RefValue.kept_arg0 m' c),
     (h c Cert.ReferenceIdeal.main_arg1).trans (Cert.ReferenceIdeal.RefValue.kept_arg1 m' c),
     (h c Cert.ReferenceIdeal.main_arg2).trans (Cert.ReferenceIdeal.RefValue.kept_arg2 m' c),
     (h c Cert.ReferenceIdeal.main_arg3).trans (Cert.ReferenceIdeal.RefValue.kept_arg3 m' c),
     (h c Cert.ReferenceIdeal.main_arg4).trans (Cert.ReferenceIdeal.RefValue.kept_arg4 m' c),
     (h c Cert.ReferenceIdeal.main_arg5).trans (Cert.ReferenceIdeal.RefValue.kept_arg5 m' c),
     (h c Cert.ReferenceIdeal.main_arg6).trans (Cert.ReferenceIdeal.RefValue.kept_arg6 m' c),
     (h c Cert.ReferenceIdeal.main_arg7).trans (Cert.ReferenceIdeal.RefValue.kept_arg7 m' c),
     (h c Cert.ReferenceIdeal.main_arg8).trans (Cert.ReferenceIdeal.RefValue.kept_arg8 m' c)⟩
  rw [Cert.ReferenceIdeal.RefValue.value, e0, e1, e2, e3, e4, e5, e6, e7, e8]
  exact (Cert.KernelIdeal.Net.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
